-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_arg14 : FVec F S128x47 .f32) (main_arg15 : FVec F S47 .f32) (main_v63 : IVec S_ 1) (main_v67 : IVec S_ 1) : IVec S_ 1 :=
  let main_v68 : IVec S_ 1 := andi main_v63 main_v67
  let main_v69 : FVec F S128x47 .f32 := Host.absf main_arg14
  let main_cst_26 : FVec F S_ .f32 := constant S_ .f32 0x7F800000#32
  let main_v70 : FVec F S128x47 .f32 := broadcastInDim S128x47 ![] bcast_S_S128x47 main_cst_26
  let main_v71 : IVec S128x47 1 := cmpf .olt main_v69 main_v70
  let main_c_27 : IVec S_ 1 := constantI S_ 1 1#1
  let main_v72 : IVec S_ 1 := (fun x v => Host.reduce IntOp.andi x v reducesTo_S128x47_S_d0_1 h_S_) main_v71 main_c_27
  let main_v73 : IVec S_ 1 := andi main_v68 main_v72
  let main_v74 : FVec F S47 .f32 := Host.absf main_arg15
  let main_cst_28 : FVec F S_ .f32 := constant S_ .f32 0x7F800000#32
  let main_v75 : FVec F S47 .f32 := broadcastInDim S47 ![] bcast_S_S47 main_cst_28
  let main_v76 : IVec S47 1 := cmpf .olt main_v74 main_v75
  let main_c_29 : IVec S_ 1 := constantI S_ 1 1#1
  let main_v77 : IVec S_ 1 := (fun x v => Host.reduce IntOp.andi x v reducesTo_S47_S_d0 h_S_) main_v76 main_c_29
  let main_v78 : IVec S_ 1 := andi main_v73 main_v77
  main_v78

def fn_part3 {F : FTy → Type} [FloatOps F] (main_arg11 : FVec F S3x128 .f32) (main_arg12 : FVec F S3x128 .f32) (main_arg13 : FVec F S3x128 .f32) (main_arg14 : FVec F S128x47 .f32) (main_arg15 : FVec F S47 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_v63 main_v67

def fn_part2 {F : FTy → Type} [FloatOps F] (main_arg7 : FVec F S3x128x128 .f32) (main_arg8 : FVec F S3x128 .f32) (main_arg9 : FVec F S3x128x128 .f32) (main_arg10 : FVec F S3x128 .f32) (main_arg11 : FVec F S3x128 .f32) (main_arg12 : FVec F S3x128 .f32) (main_arg13 : FVec F S3x128 .f32) (main_arg14 : FVec F S128x47 .f32) (main_arg15 : FVec F S47 .f32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128 .f32) (main_arg7 : FVec F S3x128x128 .f32) (main_arg8 : FVec F S3x128 .f32) (main_arg9 : FVec F S3x128x128 .f32) (main_arg10 : FVec F S3x128 .f32) (main_arg11 : FVec F S3x128 .f32) (main_arg12 : FVec F S3x128 .f32) (main_arg13 : FVec F S3x128 .f32) (main_arg14 : FVec F S128x47 .f32) (main_arg15 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128 .f32) (main_arg6 : FVec F S128 .f32) (main_arg7 : FVec F S3x128x128 .f32) (main_arg8 : FVec F S3x128 .f32) (main_arg9 : FVec F S3x128x128 .f32) (main_arg10 : FVec F S3x128 .f32) (main_arg11 : FVec F S3x128 .f32) (main_arg12 : FVec F S3x128 .f32) (main_arg13 : FVec F S3x128 .f32) (main_arg14 : FVec F S128x47 .f32) (main_arg15 : FVec F S47 .f32) (main_arg16 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S1x128 : Shape := ⟨2, ![1, 128]⟩
abbrev S4000x128 : Shape := ⟨2, ![4000, 128]⟩
abbrev S600000x128 : Shape := ⟨2, ![600000, 128]⟩
abbrev S1x128x128 : Shape := ⟨3, ![1, 128, 128]⟩
abbrev S1 : Shape := ⟨1, ![1]⟩
abbrev S100000x47 : Shape := ⟨2, ![100000, 47]⟩

abbrev nBuf : Space → Nat
  | .hbm => 158
  | .vmem => 55
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128x128, .f32⟩
  | 10 => ⟨S3x128, .f32⟩
  | 11 => ⟨S3x128, .f32⟩
  | 12 => ⟨S3x128, .f32⟩
  | 13 => ⟨S3x128, .f32⟩
  | 14 => ⟨S128x47, .f32⟩
  | 15 => ⟨S47, .f32⟩
  | 16 => ⟨S2x600000, .i32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S100000, .f32⟩
  | 25 => ⟨S600000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x1, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S100000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S100000x128, .f32⟩
  | 54 => ⟨S100000x128, .f32⟩
  | 55 => ⟨S1x128x128, .f32⟩
  | 56 => ⟨S128x128, .f32⟩
  | 57 => ⟨S1x128, .f32⟩
  | 58 => ⟨S128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S100000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S_, .f32⟩
  | 85 => ⟨S100000x128, .f32⟩
  | 86 => ⟨S600000x1, .i32⟩
  | 87 => ⟨S100000x128, .f32⟩
  | 88 => ⟨S100000x128, .f32⟩
  | 89 => ⟨S100000x128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S100000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S_, .f32⟩
  | 120 => ⟨S100000x128, .f32⟩
  | 121 => ⟨S600000x1, .i32⟩
  | 122 => ⟨S100000x128, .f32⟩
  | 123 => ⟨S100000x128, .f32⟩
  | 124 => ⟨S100000x128, .f32⟩
  | 125 => ⟨S1x128x128, .f32⟩
  | 126 => ⟨S128x128, .f32⟩
  | 127 => ⟨S1x128, .f32⟩
  | _ => ⟨S100000x128, .f32⟩

abbrev hbmTy0_1 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S100000x128, .f32⟩
  | 17 => ⟨S_, .f32⟩
  | 18 => ⟨S128x128, .f32⟩
  | 19 => ⟨S_, .i32⟩
  | 20 => ⟨S1, .i32⟩
  | 21 => ⟨S128x128, .f32⟩
  | 22 => ⟨S_, .f32⟩
  | 23 => ⟨S128, .f32⟩
  | 24 => ⟨S_, .i32⟩
  | 25 => ⟨S1, .i32⟩
  | 26 => ⟨S128, .f32⟩
  | 27 => ⟨S1x128, .f32⟩
  | 28 => ⟨S100000x128, .f32⟩
  | 29 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S128x128, .f32⟩
  | .local _ .vmem, ⟨52, _⟩ => ⟨S1x128, .f32⟩
  | .local _ .vmem, ⟨53, _⟩ => ⟨S4000x128, .f32⟩
  | .local _ .vmem, ⟨54, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_c_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_8 : Ref sig .tc := ⟨.hbm, 110, rfl⟩
abbrev main_v83 : Ref sig .tc := ⟨.hbm, 111, rfl⟩
abbrev main_v84 : Ref sig .tc := ⟨.hbm, 112, rfl⟩
abbrev main_c_9 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_10 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_11 : Ref sig .tc := ⟨.hbm, 145, rfl⟩
abbrev main_v115 : Ref sig .tc := ⟨.hbm, 146, rfl⟩
abbrev main_c_12 : Ref sig .tc := ⟨.hbm, 147, rfl⟩
abbrev main_v116 : Ref sig .tc := ⟨.hbm, 148, rfl⟩
abbrev main_v117 : Ref sig .tc := ⟨.hbm, 149, rfl⟩
abbrev main_cst_13 : Ref sig .tc := ⟨.hbm, 150, rfl⟩
abbrev main_v118 : Ref sig .tc := ⟨.hbm, 151, rfl⟩
abbrev main_c_14 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg9_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg3_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem9_1 : DmaSem sig := 48
abbrev cc4_sem0_0 : DmaSem sig := 49
abbrev cc4_sem0_1 : DmaSem sig := 50
abbrev cc4_sem1_0 : DmaSem sig := 51
abbrev cc4_sem2_0 : DmaSem sig := 52
abbrev cc4_sem3_0 : DmaSem sig := 53
abbrev cc4_sem3_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S100000x128_S100000x47_0_0 : S100000x128.Slices ![0, 0] S100000x47
  scatter_S100000_S600000x1_S600000_n_0_0_1_wf : ScatterDims.WF S100000 S600000x1 S600000 [] [0] [0] 1
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S128x128_S1_S128x47_01_n_1_0_wf : ScatterDims.WF S128x128 S1 S128x47 [0, 1] [] [1] 0
  scatter_S128_S1_S47_0_n_0_0_wf : ScatterDims.WF S128 S1 S47 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S100000x128.size a
  hwx3_9 : ∀ i : grid3.Coords, EltTy.bits .f32 = 32 ∨ (Rect.block (s := S100000x128) S4000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S128x128_S1_S128x47_01_n_1_0 : ScatterDims S128x128 S1 S128x47 where
  updateWindowDims := [0, 1]
  insertedWindowDims := []
  scatterDimsToOperandDims := [1]
  indexVectorDim := 0
  wf := scatter_S128x128_S1_S128x47_01_n_1_0_wf
def scatter_S128_S1_S47_0_n_0_0 : ScatterDims S128 S1 S47 where
  updateWindowDims := [0]
  insertedWindowDims := []
  scatterDimsToOperandDims := [0]
  indexVectorDim := 0
  wf := scatter_S128_S1_S47_0_n_0_0_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v50) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v80) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v81) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v82) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v82) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v110) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v111) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v112) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v113) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v114) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v114) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v121) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v122) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S2x600000 : Shape := ⟨2, ![2, 600000]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S1x128x128 : Shape := ⟨3, ![1, 128, 128]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x47 : Shape := ⟨2, ![100000, 47]⟩
abbrev S1x47 : Shape := ⟨2, ![1, 47]⟩

abbrev nBuf : Space → Nat
  | .hbm => 235
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128x128, .f32⟩
  | 10 => ⟨S3x128, .f32⟩
  | 11 => ⟨S3x128, .f32⟩
  | 12 => ⟨S3x128, .f32⟩
  | 13 => ⟨S3x128, .f32⟩
  | 14 => ⟨S128x47, .f32⟩
  | 15 => ⟨S47, .f32⟩
  | 16 => ⟨S2x600000, .i32⟩
  | 17 => ⟨S1x600000, .i32⟩
  | 18 => ⟨S600000, .i32⟩
  | 19 => ⟨S1x600000, .i32⟩
  | 20 => ⟨S600000, .i32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S128, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000x128, .f32⟩
  | 57 => ⟨S_, .f32⟩
  | 58 => ⟨S100000x128, .f32⟩
  | 59 => ⟨S600000x1, .i32⟩
  | 60 => ⟨S100000x128, .f32⟩
  | 61 => ⟨S_, .f32⟩
  | 62 => ⟨S600000, .f32⟩
  | 63 => ⟨S_, .f32⟩
  | 64 => ⟨S100000, .f32⟩
  | 65 => ⟨S600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S_, .f32⟩
  | 121 => ⟨S100000x128, .f32⟩
  | 122 => ⟨S600000x1, .i32⟩
  | 123 => ⟨S100000x128, .f32⟩
  | 124 => ⟨S_, .f32⟩
  | 125 => ⟨S600000, .f32⟩
  | 126 => ⟨S_, .f32⟩
  | 127 => ⟨S100000, .f32⟩
  | _ => ⟨S100000x128, .f32⟩

abbrev hbmTy0_1 (i : Nat) : BufTy := match i % 128 with
  | 0 => ⟨S600000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S1x128, .f32⟩
  | 43 => ⟨S128, .f32⟩
  | 44 => ⟨S1x128x128, .f32⟩
  | 45 => ⟨S128x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S_, .f32⟩
  | 60 => ⟨S600000, .f32⟩
  | 61 => ⟨S_, .f32⟩
  | 62 => ⟨S100000, .f32⟩
  | 63 => ⟨S600000x1, .i32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S100000x47, .f32⟩
  | 104 => ⟨S1x47, .f32⟩
  | 105 => ⟨S100000x47, .f32⟩
  | 106 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_cst : Ref sig .tc := ⟨.hbm, 101, rfl⟩
abbrev main_call1_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_6 : Ref sig .tc := ⟨.hbm, 111, rfl⟩
abbrev main_v82 : Ref sig .tc := ⟨.hbm, 112, rfl⟩
abbrev main_v83 : Ref sig .tc := ⟨.hbm, 113, rfl⟩
abbrev main_c_7 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_8 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_9 : Ref sig .tc := ⟨.hbm, 124, rfl⟩
abbrev main_v92 : Ref sig .tc := ⟨.hbm, 125, rfl⟩
abbrev main_cst_10 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_12 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call2_cst : Ref sig .tc := ⟨.hbm, 164, rfl⟩
abbrev main_call2_v0 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_13 : Ref sig .tc := ⟨.hbm, 174, rfl⟩
abbrev main_v136 : Ref sig .tc := ⟨.hbm, 175, rfl⟩
abbrev main_v137 : Ref sig .tc := ⟨.hbm, 176, rfl⟩
abbrev main_c_14 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_15 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_16 : Ref sig .tc := ⟨.hbm, 187, rfl⟩
abbrev main_v146 : Ref sig .tc := ⟨.hbm, 188, rfl⟩
abbrev main_cst_17 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_18 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_19 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_call3_cst : Ref sig .tc := ⟨.hbm, 227, rfl⟩
abbrev main_call3_v0 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x47_S100000x47_1_0_0_1_n_n_wf : DotDims.WF S100000x128 S128x47 S100000x47 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The idealized kernel's run, with its result named.

  The program is five grid launches among stretches of host operations. Its frame says that every weakly fair
  execution terminates with the argument arrays unchanged; the same launch argument, read once more at the result
  buffer, says where the result ends: at the contents the last boundary of the fold through the program gives it,
  `W11 m ρ c` at `main_v123`. What that is as a function of the arguments is computed elsewhere.
-/
import proofs.«102266_j41506563948594_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v123) = W11 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v123 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.RunValue

end
-- ==== Proof.ResidSpec.lean ====
/-
  The network both programs compute, as functions on the extended reals, index by index.

  A node-feature matrix `h : [100000, 128]` is made by an input layer, updated by three residual
  mean-aggregation layers, and read out by a linear layer:

    * normalisation of a pre-activation `t` with running statistics:
        `bn t μ γ σ² β = (t - μ) · (γ · rsqrt (σ² + ε)) + β`;
    * input layer:     `h₀(n, f) = max (bn (∑ₖ x(n,k) · W(k,f) + b(f))) 0`;
    * residual layer:  `h'(n, f) = h(n, f) + max (bn (∑ₖ a(n,k) · Wl(k,f) + bl(f) + ∑ₖ h(n,k) · Wr(k,f))) 0`,
      where `a` is the matrix of neighbourhood means of `h`;
    * read-out:        `out(n, c) = ∑ₖ h(n,k) · Wo(k,c) + bo(c)`.

  The one algebraic law the comparison needs is that dividing by a nonzero count is multiplying by its
  reciprocal, at the infinities too.
-/
import Idealize.ShloMosaic.PureOps.Ideal
import Idealize.ShloMosaic.PureOps.Ideal.Laws
import Idealize.ShloMosaic.Lib.ValueIdx

noncomputable section

namespace Resid

open Idealize.ShloMosaic Idealize.ShloMosaic.ValueIdx

/-- Node features, `[100000, 128]`. -/
abbrev SN : Shape := ⟨2, ![100000, 128]⟩
/-- A square weight matrix, `[128, 128]`. -/
abbrev SW : Shape := ⟨2, ![128, 128]⟩
/-- A per-feature vector, `[128]`. -/
abbrev SR : Shape := ⟨1, ![128]⟩
/-- The read-out's weight, `[128, 47]`, bias `[47]` and result `[100000, 47]`. -/
abbrev SWo : Shape := ⟨2, ![128, 47]⟩
abbrev SRo : Shape := ⟨1, ![47]⟩
abbrev SO : Shape := ⟨2, ![100000, 47]⟩

/-- The normalisation's epsilon: the binary32 nearest `1e-5`, the same word in both programs. -/
def eps : EReal := Ideal.ofBits .f32 0x3727C5AC#32

/-- Normalisation with running statistics: `(t - μ) · (γ · rsqrt (σ² + ε)) + β`. -/
def bn (t mu g var beta : EReal) : EReal := (t - mu) * (g * Ideal.rsqrt (var + eps)) + beta

/-- The input layer. -/
def init (x : SN.Idx → EReal) (W : SW.Idx → EReal) (b g beta mu var : SR.Idx → EReal) : SN.Idx → EReal :=
  fun i => max (bn ((∑ k : Fin 128, x (ix2 (i 0) k) * W (ix2 k (i 1))) + b (ix1 (i 1)))
    (mu (ix1 (i 1))) (g (ix1 (i 1))) (var (ix1 (i 1))) (beta (ix1 (i 1)))) 0

/-- One residual layer, from the features `h` and the neighbourhood means `a`. -/
def sage (h a : SN.Idx → EReal) (Wl : SW.Idx → EReal) (bl : SR.Idx → EReal) (Wr : SW.Idx → EReal)
    (g beta mu var : SR.Idx → EReal) : SN.Idx → EReal :=
  fun i => h i + max (bn (((∑ k : Fin 128, a (ix2 (i 0) k) * Wl (ix2 k (i 1))) + bl (ix1 (i 1)))
      + ∑ k : Fin 128, h (ix2 (i 0) k) * Wr (ix2 k (i 1)))
    (mu (ix1 (i 1))) (g (ix1 (i 1))) (var (ix1 (i 1))) (beta (ix1 (i 1)))) 0

/-- The read-out. -/
def final (h : SN.Idx → EReal) (W : SWo.Idx → EReal) (b : SRo.Idx → EReal) : SO.Idx → EReal :=
  fun i => (∑ k : Fin 128, h (ix2 (i 0) k) * W (ix2 k (i 1))) + b (ix1 (i 1))

/-- Dividing by a count that is at least one is multiplying by its reciprocal: for `c ≠ 0` both are
    `s · c⁻¹`, whatever `s` is (the infinities included). -/
theorem mul_recip_eq_div (s c : EReal) (hc : c ≠ 0) : s * Ideal.div 1 c = Ideal.div s c := by
  unfold Ideal.div
  rw [if_neg hc, if_neg hc, one_mul]

/-- A count raised to at least one is not zero. -/
theorem max_one_ne_zero (c : EReal) : max c 1 ≠ 0 := by
  have h : (1 : EReal) ≤ max c 1 := le_max_right _ _
  intro e
  rw [e] at h
  exact absurd h (by norm_num)

end Resid

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.BlockPayload.lean ====
/-
  What one grid point computes, entry by entry.

  Each launch's body works on a block of 4000 rows: it multiplies the block (and, in a residual layer, the block
  of neighbourhood means) by a 128 × 128 weight on the matrix unit into a zero accumulator, adds the bias row,
  normalises with the running statistics' rows, clamps at zero and (in a residual layer) adds the block back.
  Read at row `r` and feature `f` of the block, each matrix product is the sum over `k` of the operand rows'
  entries, every broadcast row is its entry `f`, and a change of float format is the identity: the entry is the
  layer's formula (`Resid.bn`) of row `r` of the blocks and entry `f` of the parameter rows.
-/
import proofs.«102266_j41506563948594_2_alg».proof.Proof.Gen.KernelIdeal.Skeleton
import proofs.«102266_j41506563948594_2_alg».proof.Proof.ResidSpec
import proofs.«102266_j41506563948594_2_alg».proof.Proof.LibDotRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

local notation "dotB" => dot_S4000x128_S128x128_S4000x128_1_0_0_1_n_n

/-- The left operand's row is the output's row. -/
theorem dot_lhs_row (j : S4000x128.Idx) (q : (dot_S4000x128_S128x128_S4000x128_1_0_0_1_n_n).contr.Idx) :
    ((dot_S4000x128_S128x128_S4000x128_1_0_0_1_n_n).lhsIdx j q 0).val = (j 0).val := by
  unfold DotDims.lhsIdx
  rw [dif_neg (show ¬(0 : Fin S4000x128.rank) ∈ (dot_S4000x128_S128x128_S4000x128_1_0_0_1_n_n).lhsBatch by decide),
    dif_pos (show (0 : Fin S4000x128.rank) ∈ (dot_S4000x128_S128x128_S4000x128_1_0_0_1_n_n).lhsNonContracting by decide)]
  rfl

/-- The right operand's column is the output's column. -/
theorem dot_rhs_col (j : S4000x128.Idx) (q : (dot_S4000x128_S128x128_S4000x128_1_0_0_1_n_n).contr.Idx) :
    ((dot_S4000x128_S128x128_S4000x128_1_0_0_1_n_n).rhsIdx j q 1).val = (j 1).val := by
  unfold DotDims.rhsIdx
  rw [dif_neg (show ¬(1 : Fin S128x128.rank) ∈ (dot_S4000x128_S128x128_S4000x128_1_0_0_1_n_n).rhsBatch by decide),
    dif_pos (show (1 : Fin S128x128.rank) ∈ (dot_S4000x128_S128x128_S4000x128_1_0_0_1_n_n).rhsNonContracting by decide)]
  rfl

/-- A block times a weight on the matrix unit, into the zero accumulator, read at `(r, f)`: the sum over `k` of
    the block's row `r` against the weight's column `f`; the operands' narrowing to bf16 changes nothing. -/
theorem matmul_at (a : Vec Ideal S4000x128 .f32) (w : Vec Ideal S128x128 .f32) (r : Fin 4000) (f : Fin 128) :
    matmul (F := Ideal) dot_S4000x128_S128x128_S4000x128_1_0_0_1_n_n none (truncf .bf16 a bitsLt_bf16_f32) (truncf .bf16 w bitsLt_bf16_f32)
        (constant S4000x128 .f32 0x00000000#32) (ix2 r f)
      = ∑ k : Fin 128, a (ix2 r k) * w (ix2 k f) := by
  refine (Ideal.matmul_constant_zero_apply dot_S4000x128_S128x128_S4000x128_1_0_0_1_n_n none
    (truncf .bf16 a bitsLt_bf16_f32) (truncf .bf16 w bitsLt_bf16_f32) (ix2 r f)).trans ?_
  exact DotRow.sum_contr (M := 4000) (K := 128) (N := 128) dot_S4000x128_S128x128_S4000x128_1_0_0_1_n_n rfl rfl rfl rfl
    dot_lhs_row dot_rhs_col (fun i => a i) (fun i => w i) r f

/-- A parameter row broadcast over the block's rows, read at `(r, f)`, is the row's entry `f`. -/
theorem row_at (v : FVec Ideal S1x128 .f32) (r : Fin 4000) (f : Fin 128) :
    broadcastTo S4000x128 v broadcasts_S1x128_S4000x128 (ix2 r f) = v (ix2 (0 : Fin 1) f) :=
  broadcastTo_1b_ab_apply (a := 4000) (b := 128) v broadcasts_S1x128_S4000x128 r f

/-- THE INPUT LAYER's block at `(r, f)`. -/
theorem init_at (v0 : Vec Ideal S4000x128 .f32) (v2 : Vec Ideal S128x128 .f32) (v5 v9 v11 v17 v23 : Vec Ideal S1x128 .f32)
    (r : Fin 4000) (f : Fin 128) :
    k0_pay1 (F := Ideal) v0 v2 v5 v9 v11 v17 v23 (ix2 r f)
      = max (Resid.bn ((∑ k : Fin 128, v0 (ix2 r k) * v2 (ix2 k f)) + v5 (ix2 (0 : Fin 1) f))
          (v17 (ix2 (0 : Fin 1) f)) (v9 (ix2 (0 : Fin 1) f)) (v11 (ix2 (0 : Fin 1) f)) (v23 (ix2 (0 : Fin 1) f))) 0 := by
  unfold k0_pay1 Resid.bn
  simp only [shapeCast_self, maximumf_apply, addf_apply, subf_apply, mulf_apply, broadcast_apply, row_at, matmul_at]
  rw [show Scalar.ofBits (F := Ideal) .f32 0x00000000#32 = (0 : EReal) from Ideal.ofBits_zero_f32]
  rfl

/-- A RESIDUAL LAYER's block at `(r, f)`: the features' entry plus the clamped normalised sum of the two products. -/
theorem sage_at (v0 v2 : Vec Ideal S4000x128 .f32) (v5 v9 : Vec Ideal S128x128 .f32) (v13 v19 v21 v27 v33 : Vec Ideal S1x128 .f32)
    (r : Fin 4000) (f : Fin 128) :
    k1_pay1 (F := Ideal) (k1_pay2 v0) (k1_pay3 v0 v2 v5 v9 v13 v19 v21 v27 v33) (Scalar.ofBits .f32 0x00000000#32) (ix2 r f)
      = v0 (ix2 r f) + max (Resid.bn (((∑ k : Fin 128, v2 (ix2 r k) * v5 (ix2 k f)) + v13 (ix2 (0 : Fin 1) f))
            + ∑ k : Fin 128, v0 (ix2 r k) * v9 (ix2 k f))
          (v27 (ix2 (0 : Fin 1) f)) (v19 (ix2 (0 : Fin 1) f)) (v21 (ix2 (0 : Fin 1) f)) (v33 (ix2 (0 : Fin 1) f))) 0 := by
  unfold k1_pay1 k1_pay3 k1_pay2 Resid.bn
  simp only [shapeCast_self, maximumf_apply, addf_apply, subf_apply, mulf_apply, broadcast_apply, row_at, matmul_at]
  rw [show Scalar.ofBits (F := Ideal) .f32 0x00000000#32 = (0 : EReal) from Ideal.ofBits_zero_f32]
  rfl

/-- The second and third residual layers run the same body. -/
theorem sage_at2 (v0 v2 : Vec Ideal S4000x128 .f32) (v5 v9 : Vec Ideal S128x128 .f32) (v13 v19 v21 v27 v33 : Vec Ideal S1x128 .f32)
    (r : Fin 4000) (f : Fin 128) :
    k2_pay1 (F := Ideal) (k2_pay2 v0) (k2_pay3 v0 v2 v5 v9 v13 v19 v21 v27 v33) (Scalar.ofBits .f32 0x00000000#32) (ix2 r f)
      = v0 (ix2 r f) + max (Resid.bn (((∑ k : Fin 128, v2 (ix2 r k) * v5 (ix2 k f)) + v13 (ix2 (0 : Fin 1) f))
            + ∑ k : Fin 128, v0 (ix2 r k) * v9 (ix2 k f))
          (v27 (ix2 (0 : Fin 1) f)) (v19 (ix2 (0 : Fin 1) f)) (v21 (ix2 (0 : Fin 1) f)) (v33 (ix2 (0 : Fin 1) f))) 0 :=
  sage_at v0 v2 v5 v9 v13 v19 v21 v27 v33 r f

theorem sage_at3 (v0 v2 : Vec Ideal S4000x128 .f32) (v5 v9 : Vec Ideal S128x128 .f32) (v13 v19 v21 v27 v33 : Vec Ideal S1x128 .f32)
    (r : Fin 4000) (f : Fin 128) :
    k3_pay1 (F := Ideal) (k3_pay2 v0) (k3_pay3 v0 v2 v5 v9 v13 v19 v21 v27 v33) (Scalar.ofBits .f32 0x00000000#32) (ix2 r f)
      = v0 (ix2 r f) + max (Resid.bn (((∑ k : Fin 128, v2 (ix2 r k) * v5 (ix2 k f)) + v13 (ix2 (0 : Fin 1) f))
            + ∑ k : Fin 128, v0 (ix2 r k) * v9 (ix2 k f))
          (v27 (ix2 (0 : Fin 1) f)) (v19 (ix2 (0 : Fin 1) f)) (v21 (ix2 (0 : Fin 1) f)) (v33 (ix2 (0 : Fin 1) f))) 0 :=
  sage_at v0 v2 v5 v9 v13 v19 v21 v27 v33 r f

/-- THE READ-OUT's block at `(r, f)`: the product's entry plus the bias row's. -/
theorem final_at (v0 : Vec Ideal S4000x128 .f32) (v3 : Vec Ideal S128x128 .f32) (v7 : Vec Ideal S1x128 .f32) (r : Fin 4000) (f : Fin 128) :
    k4_pay1 (F := Ideal) v0 v3 v7 (ix2 r f) = (∑ k : Fin 128, v0 (ix2 r k) * v3 (ix2 k f)) + v7 (ix2 (0 : Fin 1) f) := by
  unfold k4_pay1
  simp only [shapeCast_self, addf_apply, row_at, matmul_at]

end Cert.KernelIdeal.BlockValue

end
-- ==== Proof.InitRegion.lean ====
/-
  The input layer's launch, from blocks to the array.

  The grid has 25 points; point `t` reads rows `4000·t … 4000·t + 3999` of the node features, the whole weight and
  the five whole parameter rows, and writes back the same rows of the result. A row of the result therefore
  depends only on that row of the features: the blocks are restrictions of ONE function `G` of the arrays as the
  launch finds them, and the 25 blocks tile the 100000 rows, so the result array is `G` of them.
-/
import proofs.«102266_j41506563948594_2_alg».proof.Proof.Gen.KernelIdeal.Frame
import proofs.«102266_j41506563948594_2_alg».proof.Proof.BlockPayload
import Idealize.ShloMosaic.Lib.Pipeline.Value

set_option maxRecDepth 16384

noncomputable section

namespace Cert.KernelIdeal.InitValue

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's result as one function of the arrays the launch finds: row `n`, feature `f`. -/
def G (x : S100000x128.Idx → EReal) (W : S128x128.Idx → EReal) (b g beta mu var : S1x128.Idx → EReal) : S100000x128.Idx → EReal :=
  fun i => max (Resid.bn ((∑ k : Fin 128, x (ix2 (i 0) k) * W (ix2 k (i 1))) + b (ix2 (0 : Fin 1) (i 1)))
    (mu (ix2 (0 : Fin 1) (i 1))) (g (ix2 (0 : Fin 1) (i 1))) (var (ix2 (0 : Fin 1) (i 1))) (beta (ix2 (0 : Fin 1) (i 1)))) 0

/-- The index maps over the grid: the feature rows move with the result's rows, every other window stays at its
    one block, and the result's row block stays below 25. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 24 :=
  (by decide +kernel : ∀ t : Fin grid0.N, _)

/-- Every row block is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-- Row `p` of the feature block at point `t` is row `4000·t + p` of the features. -/
theorem rows_at (c : Dev nD) (t : Fin cfg0.N) (p : Fin 4000) (k : Fin 128) (n : Fin 100000)
    (hn : n.val = win0_7.index t (0 : Fin 2) * 4000 + p.val) :
    iblk0 V c 0 t (ix2 p k) = V c main_arg0 (ix2 n k) := by
  obtain ⟨e0, e1, -⟩ := idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 4000 + 1 * p.val = n.val; omega
  | ⟨1, _⟩ => show win0_0.index t (1 : Fin 2) * 128 + 1 * k.val = k.val; omega

/-- The weight block at any point is the whole weight. -/
theorem weight_at (c : Dev nD) (t : Fin cfg0.N) (k f : Fin 128) :
    iblk0 V c 1 t (ix2 k f) = V c main_arg1 (ix2 k f) := by
  obtain ⟨-, -, -, e0, e1, -⟩ := idx_facts t
  show V c main_arg1 (((cfg0.win 1).blk t).view.emb (ix2 k f)) = V c main_arg1 (ix2 k f)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 128 + 1 * f.val = f.val; omega

/-- Each parameter row's block at any point is the whole row. -/
theorem row2_at (c : Dev nD) (t : Fin cfg0.N) (f : Fin 128) :
    iblk0 V c 2 t (ix2 (0 : Fin 1) f) = V c main_v13 (ix2 (0 : Fin 1) f) := by
  obtain ⟨-, -, -, -, -, e0, e1, -⟩ := idx_facts t
  show V c main_v13 (((cfg0.win 2).blk t).view.emb (ix2 (0 : Fin 1) f)) = V c main_v13 (ix2 (0 : Fin 1) f)
  refine congrArg (V c main_v13) (funext fun a => Fin.ext ?_)
  match a with
  | ⟨0, _⟩ => show win0_2.index t (0 : Fin 2) * 1 + 1 * 0 = 0; omega
  | ⟨1, _⟩ => show win0_2.index t (1 : Fin 2) * 128 + 1 * f.val = f.val; omega
theorem row3_at (c : Dev nD) (t : Fin cfg0.N) (f : Fin 128) :
    iblk0 V c 3 t (ix2 (0 : Fin 1) f) = V c main_v14 (ix2 (0 : Fin 1) f) := by
  obtain ⟨-, -, -, -, -, -, -, e0, e1, -⟩ := idx_facts t
  show V c main_v14 (((cfg0.win 3).blk t).view.emb (ix2 (0 : Fin 1) f)) = V c main_v14 (ix2 (0 : Fin 1) f)
  refine congrArg (V c main_v14) (funext fun a => Fin.ext ?_)
  match a with
  | ⟨0, _⟩ => show win0_3.index t (0 : Fin 2) * 1 + 1 * 0 = 0; omega
  | ⟨1, _⟩ => show win0_3.index t (1 : Fin 2) * 128 + 1 * f.val = f.val; omega
theorem row4_at (c : Dev nD) (t : Fin cfg0.N) (f : Fin 128) :
    iblk0 V c 4 t (ix2 (0 : Fin 1) f) = V c main_v15 (ix2 (0 : Fin 1) f) := by
  obtain ⟨-, -, -, -, -, -, -, -, -, e0, e1, -⟩ := idx_facts t
  show V c main_v15 (((cfg0.win 4).blk t).view.emb (ix2 (0 : Fin 1) f)) = V c main_v15 (ix2 (0 : Fin 1) f)
  refine congrArg (V c main_v15) (funext fun a => Fin.ext ?_)
  match a with
  | ⟨0, _⟩ => show win0_4.index t (0 : Fin 2) * 1 + 1 * 0 = 0; omega
  | ⟨1, _⟩ => show win0_4.index t (1 : Fin 2) * 128 + 1 * f.val = f.val; omega
theorem row5_at (c : Dev nD) (t : Fin cfg0.N) (f : Fin 128) :
    iblk0 V c 5 t (ix2 (0 : Fin 1) f) = V c main_v16 (ix2 (0 : Fin 1) f) := by
  obtain ⟨-, -, -, -, -, -, -, -, -, -, -, e0, e1, -⟩ := idx_facts t
  show V c main_v16 (((cfg0.win 5).blk t).view.emb (ix2 (0 : Fin 1) f)) = V c main_v16 (ix2 (0 : Fin 1) f)
  refine congrArg (V c main_v16) (funext fun a => Fin.ext ?_)
  match a with
  | ⟨0, _⟩ => show win0_5.index t (0 : Fin 2) * 1 + 1 * 0 = 0; omega
  | ⟨1, _⟩ => show win0_5.index t (1 : Fin 2) * 128 + 1 * f.val = f.val; omega
theorem row6_at (c : Dev nD) (t : Fin cfg0.N) (f : Fin 128) :
    iblk0 V c 6 t (ix2 (0 : Fin 1) f) = V c main_v17 (ix2 (0 : Fin 1) f) := by
  obtain ⟨-, -, -, -, -, -, -, -, -, -, -, -, -, e0, e1, -⟩ := idx_facts t
  show V c main_v17 (((cfg0.win 6).blk t).view.emb (ix2 (0 : Fin 1) f)) = V c main_v17 (ix2 (0 : Fin 1) f)
  refine congrArg (V c main_v17) (funext fun a => Fin.ext ?_)
  match a with
  | ⟨0, _⟩ => show win0_6.index t (0 : Fin 2) * 1 + 1 * 0 = 0; omega
  | ⟨1, _⟩ => show win0_6.index t (1 : Fin 2) * 128 + 1 * f.val = f.val; omega

/-- WHAT POINT `t` WRITES BACK is block `t` of `G` of the arrays as the launch finds them. -/
theorem flushed_eq (c : Dev nD) (t : Fin cfg0.N) :
    (dat0 V c).flushed 7 t = ((cfg0.win 7).blk t).view.read (Elt Ideal)
      (G (V c main_arg0) (V c main_arg1) (V c main_v13) (V c main_v14) (V c main_v15) (V c main_v16) (V c main_v17)) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, e71, -⟩ := idx_facts t
  have hrow : (((cfg0.win 7).blk t).view.emb (ix2 p q) 0).val = win0_7.index t (0 : Fin 2) * 4000 + p.val := by
    show win0_7.index t (0 : Fin 2) * 4000 + 1 * p.val = _; omega
  have hcol : ((cfg0.win 7).blk t).view.emb (ix2 p q) 1 = q := Fin.ext (by
    show win0_7.index t (1 : Fin 2) * 128 + 1 * q.val = q.val; omega)
  refine (init_at (iblk0 V c 0 t) (iblk0 V c 1 t) (iblk0 V c 2 t) (iblk0 V c 3 t) (iblk0 V c 6 t) (iblk0 V c 5 t) (iblk0 V c 4 t) p q).trans ?_
  show _ = G _ _ _ _ _ _ _ (((cfg0.win 7).blk t).view.emb (ix2 p q))
  unfold G
  rw [hcol, row2_at, row3_at, row4_at, row5_at, row6_at]
  simp only [weight_at, rows_at V c t p _ _ hrow]

/-- An index of the result is in point `t`'s block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v18).slice (win0_7.rect t)).set ↔ _
  rw [View.set_slice_whole, Rect.mem_set_unit]
  exact Iff.rfl

/-- The 25 row blocks tile the result: row `n` is in block `n / 4000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 4000, by omega⟩
  have q0 : win0_7.index t (0 : Fin 2) = (i 0).val / 4000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE RESULT ARRAY after the launch is `G` of the arrays as the launch finds them. -/
theorem final (c : Dev nD) : (dat0 V c).arrAt 7 cfg0.N
    = G (V c main_arg0) (V c main_arg1) (V c main_v13) (V c main_v14) (V c main_v15) (V c main_v16) (V c main_v17) :=
  (dat0 V c).arrAt_eq_of_cover 7 _ (fun t _ => flushed_eq V c t) cover

end Cert.KernelIdeal.InitValue

end
-- ==== Proof.Layer1Region.lean ====
/-
  A residual layer's launch, from blocks to the array.

  The grid has 25 points; point `t` reads rows `4000·t … 4000·t + 3999` of the features and of the neighbourhood
  means, the two whole weights and the five whole parameter rows, and writes back the same rows of the result. A
  row of the result depends only on that row of the features and of the means: the blocks are restrictions of ONE
  function `G` of the arrays as the launch finds them, and the 25 blocks tile the 100000 rows.
-/
import proofs.«102266_j41506563948594_2_alg».proof.Proof.Gen.KernelIdeal.Frame
import proofs.«102266_j41506563948594_2_alg».proof.Proof.BlockPayload
import Idealize.ShloMosaic.Lib.Pipeline.Value

set_option maxRecDepth 16384

noncomputable section

namespace Cert.KernelIdeal.Layer1Value

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's result as one function of the arrays the launch finds: row `n`, feature `f`. -/
def G (h a : S100000x128.Idx → EReal) (Wl : S128x128.Idx → EReal) (bl : S1x128.Idx → EReal) (Wr : S128x128.Idx → EReal)
    (g beta mu var : S1x128.Idx → EReal) : S100000x128.Idx → EReal :=
  fun i => h (ix2 (i 0) (i 1)) + max (Resid.bn (((∑ k : Fin 128, a (ix2 (i 0) k) * Wl (ix2 k (i 1))) + bl (ix2 (0 : Fin 1) (i 1)))
      + ∑ k : Fin 128, h (ix2 (i 0) k) * Wr (ix2 k (i 1)))
    (mu (ix2 (0 : Fin 1) (i 1))) (g (ix2 (0 : Fin 1) (i 1))) (var (ix2 (0 : Fin 1) (i 1))) (beta (ix2 (0 : Fin 1) (i 1)))) 0

/-- The index maps over the grid: the two row windows move with the result's rows, every other window stays at
    its one block, and the result's row block stays below 25. -/
theorem idx_facts : ∀ t : Fin cfg1.N, win1_0.index t (0 : Fin 2) = win1_9.index t (0 : Fin 2)
    ∧ win1_0.index t (1 : Fin 2) = 0 ∧ win1_9.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 24 :=
  (by decide +kernel : ∀ t : Fin grid1.N, _)

/-- Every row block is some point's. -/
theorem idx_onto : ∀ q0 : Fin 25, ∃ t : Fin cfg1.N, win1_9.index t = ![q0.val, 0] :=
  (by decide +kernel : ∀ q0 : Fin 25, ∃ t : Fin grid1.N, win1_9.index t = ![q0.val, 0])

/-- Row `p` of the feature block at point `t` is row `4000·t + p` of the features. -/
theorem rows_at (c : Dev nD) (t : Fin cfg1.N) (p : Fin 4000) (k : Fin 128) (n : Fin 100000)
    (hn : n.val = win1_9.index t (0 : Fin 2) * 4000 + p.val) :
    iblk1 V c 0 t (ix2 p k) = V c main_v18 (ix2 n k) := by
  obtain ⟨e0, e1, -⟩ := idx_facts t
  show V c main_v18 (((cfg1.win 0).blk t).view.emb (ix2 p k)) = V c main_v18 (ix2 n k)
  refine congrArg (V c main_v18) (funext fun a => Fin.ext ?_)
  match a with
  | ⟨0, _⟩ => show win1_0.index t (0 : Fin 2) * 4000 + 1 * p.val = n.val; omega
  | ⟨1, _⟩ => show win1_0.index t (1 : Fin 2) * 128 + 1 * k.val = k.val; omega

/-- Row `p` of the means' block at point `t` is row `4000·t + p` of the means. -/
theorem means_at (c : Dev nD) (t : Fin cfg1.N) (p : Fin 4000) (k : Fin 128) (n : Fin 100000)
    (hn : n.val = win1_9.index t (0 : Fin 2) * 4000 + p.val) :
    iblk1 V c 1 t (ix2 p k) = V c main_v30 (ix2 n k) := by
  obtain ⟨-, -, -, e0, e1, -⟩ := idx_facts t
  show V c main_v30 (((cfg1.win 1).blk t).view.emb (ix2 p k)) = V c main_v30 (ix2 n k)
  refine congrArg (V c main_v30) (funext fun a => Fin.ext ?_)
  match a with
  | ⟨0, _⟩ => show win1_1.index t (0 : Fin 2) * 4000 + 1 * p.val = n.val; omega
  | ⟨1, _⟩ => show win1_1.index t (1 : Fin 2) * 128 + 1 * k.val = k.val; omega

/-- Each weight's block at any point is the whole weight. -/
theorem weightl_at (c : Dev nD) (t : Fin cfg1.N) (k f : Fin 128) :
    iblk1 V c 2 t (ix2 k f) = V c main_v32 (ix2 k f) := by
  obtain ⟨-, -, -, -, -, e0, e1, -⟩ := idx_facts t
  show V c main_v32 (((cfg1.win 2).blk t).view.emb (ix2 k f)) = V c main_v32 (ix2 k f)
  refine congrArg (V c main_v32) (funext fun a => Fin.ext ?_)
  match a with
  | ⟨0, _⟩ => show win1_2.index t (0 : Fin 2) * 128 + 1 * k.val = k.val; omega
  | ⟨1, _⟩ => show win1_2.index t (1 : Fin 2) * 128 + 1 * f.val = f.val; omega
theorem weightr_at (c : Dev nD) (t : Fin cfg1.N) (k f : Fin 128) :
    iblk1 V c 4 t (ix2 k f) = V c main_v36 (ix2 k f) := by
  obtain ⟨-, -, -, -, -, -, -, -, -, e0, e1, -⟩ := idx_facts t
  show V c main_v36 (((cfg1.win 4).blk t).view.emb (ix2 k f)) = V c main_v36 (ix2 k f)
  refine congrArg (V c main_v36) (funext fun a => Fin.ext ?_)
  match a with
  | ⟨0, _⟩ => show win1_4.index t (0 : Fin 2) * 128 + 1 * k.val = k.val; omega
  | ⟨1, _⟩ => show win1_4.index t (1 : Fin 2) * 128 + 1 * f.val = f.val; omega

/-- Each parameter row's block at any point is the whole row. -/
theorem row3_at (c : Dev nD) (t : Fin cfg1.N) (f : Fin 128) :
    iblk1 V c 3 t (ix2 (0 : Fin 1) f) = V c main_v45 (ix2 (0 : Fin 1) f) := by
  obtain ⟨-, -, -, -, -, -, -, e0, e1, -⟩ := idx_facts t
  show V c main_v45 (((cfg1.win 3).blk t).view.emb (ix2 (0 : Fin 1) f)) = V c main_v45 (ix2 (0 : Fin 1) f)
  refine congrArg (V c main_v45) (funext fun a => Fin.ext ?_)
  match a with
  | ⟨0, _⟩ => show win1_3.index t (0 : Fin 2) * 1 + 1 * 0 = 0; omega
  | ⟨1, _⟩ => show win1_3.index t (1 : Fin 2) * 128 + 1 * f.val = f.val; omega
theorem row5_at (c : Dev nD) (t : Fin cfg1.N) (f : Fin 128) :
    iblk1 V c 5 t (ix2 (0 : Fin 1) f) = V c main_v46 (ix2 (0 : Fin 1) f) := by
  obtain ⟨-, -, -, -, -, -, -, -, -, -, -, e0, e1, -⟩ := idx_facts t
  show V c main_v46 (((cfg1.win 5).blk t).view.emb (ix2 (0 : Fin 1) f)) = V c main_v46 (ix2 (0 : Fin 1) f)
  refine congrArg (V c main_v46) (funext fun a => Fin.ext ?_)
  match a with
  | ⟨0, _⟩ => show win1_5.index t (0 : Fin 2) * 1 + 1 * 0 = 0; omega
  | ⟨1, _⟩ => show win1_5.index t (1 : Fin 2) * 128 + 1 * f.val = f.val; omega
theorem row6_at (c : Dev nD) (t : Fin cfg1.N) (f : Fin 128) :
    iblk1 V c 6 t (ix2 (0 : Fin 1) f) = V c main_v47 (ix2 (0 : Fin 1) f) := by
  obtain ⟨-, -, -, -, -, -, -, -, -, -, -, -, -, e0, e1, -⟩ := idx_facts t
  show V c main_v47 (((cfg1.win 6).blk t).view.emb (ix2 (0 : Fin 1) f)) = V c main_v47 (ix2 (0 : Fin 1) f)
  refine congrArg (V c main_v47) (funext fun a => Fin.ext ?_)
  match a with
  | ⟨0, _⟩ => show win1_6.index t (0 : Fin 2) * 1 + 1 * 0 = 0; omega
  | ⟨1, _⟩ => show win1_6.index t (1 : Fin 2) * 128 + 1 * f.val = f.val; omega
theorem row7_at (c : Dev nD) (t : Fin cfg1.N) (f : Fin 128) :
    iblk1 V c 7 t (ix2 (0 : Fin 1) f) = V c main_v48 (ix2 (0 : Fin 1) f) := by
  obtain ⟨-, -, -, -, -, -, -, -, -, -, -, -, -, -, -, e0, e1, -⟩ := idx_facts t
  show V c main_v48 (((cfg1.win 7).blk t).view.emb (ix2 (0 : Fin 1) f)) = V c main_v48 (ix2 (0 : Fin 1) f)
  refine congrArg (V c main_v48) (funext fun a => Fin.ext ?_)
  match a with
  | ⟨0, _⟩ => show win1_7.index t (0 : Fin 2) * 1 + 1 * 0 = 0; omega
  | ⟨1, _⟩ => show win1_7.index t (1 : Fin 2) * 128 + 1 * f.val = f.val; omega
theorem row8_at (c : Dev nD) (t : Fin cfg1.N) (f : Fin 128) :
    iblk1 V c 8 t (ix2 (0 : Fin 1) f) = V c main_v49 (ix2 (0 : Fin 1) f) := by
  obtain ⟨-, -, -, -, -, -, -, -, -, -, -, -, -, -, -, -, -, e0, e1, -⟩ := idx_facts t
  show V c main_v49 (((cfg1.win 8).blk t).view.emb (ix2 (0 : Fin 1) f)) = V c main_v49 (ix2 (0 : Fin 1) f)
  refine congrArg (V c main_v49) (funext fun a => Fin.ext ?_)
  match a with
  | ⟨0, _⟩ => show win1_8.index t (0 : Fin 2) * 1 + 1 * 0 = 0; omega
  | ⟨1, _⟩ => show win1_8.index t (1 : Fin 2) * 128 + 1 * f.val = f.val; omega

/-- WHAT POINT `t` WRITES BACK is block `t` of `G` of the arrays as the launch finds them. -/
theorem flushed_eq (c : Dev nD) (t : Fin cfg1.N) :
    (dat1 V c).flushed 9 t = ((cfg1.win 9).blk t).view.read (Elt Ideal)
      (G (V c main_v18) (V c main_v30) (V c main_v32) (V c main_v45) (V c main_v36) (V c main_v46) (V c main_v47) (V c main_v48) (V c main_v49)) := by
  show (cfg1.win 9).cut (grid1.coords t) ((dat1 V c).after 9 t) = _
  rw [after1_9]
  unfold out1_9
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, e91, -⟩ := idx_facts t
  have hrow : (((cfg1.win 9).blk t).view.emb (ix2 p q) 0).val = win1_9.index t (0 : Fin 2) * 4000 + p.val := by
    show win1_9.index t (0 : Fin 2) * 4000 + 1 * p.val = _; omega
  have hcol : ((cfg1.win 9).blk t).view.emb (ix2 p q) 1 = q := Fin.ext (by
    show win1_9.index t (1 : Fin 2) * 128 + 1 * q.val = q.val; omega)
  refine (sage_at (iblk1 V c 0 t) (iblk1 V c 1 t) (iblk1 V c 2 t) (iblk1 V c 4 t) (iblk1 V c 3 t) (iblk1 V c 5 t) (iblk1 V c 8 t) (iblk1 V c 7 t) (iblk1 V c 6 t) p q).trans ?_
  show _ = G _ _ _ _ _ _ _ _ _ (((cfg1.win 9).blk t).view.emb (ix2 p q))
  unfold G
  rw [hcol, row3_at, row5_at, row6_at, row7_at, row8_at]
  simp only [weightl_at, weightr_at, rows_at V c t p _ _ hrow, means_at V c t p _ _ hrow]

/-- An index of the result is in point `t`'s block iff each coordinate is in the block's range on its axis. -/
theorem mem_blk (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v50).slice (win1_9.rect t)).set ↔ _
  rw [View.set_slice_whole, Rect.mem_set_unit]
  exact Iff.rfl

/-- The 25 row blocks tile the result: row `n` is in block `n / 4000`. -/
theorem cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ := idx_onto ⟨(i 0).val / 4000, by omega⟩
  have q0 : win1_9.index t (0 : Fin 2) = (i 0).val / 4000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 128 ≤ (i 1).val ∧ (i 1).val < win1_9.index t (1 : Fin 2) * 128 + 128; omega

/-- THE RESULT ARRAY after the launch is `G` of the arrays as the launch finds them. -/
theorem final (c : Dev nD) : (dat1 V c).arrAt 9 cfg1.N
    = G (V c main_v18) (V c main_v30) (V c main_v32) (V c main_v45) (V c main_v36) (V c main_v46) (V c main_v47) (V c main_v48) (V c main_v49) :=
  (dat1 V c).arrAt_eq_of_cover 9 _ (fun t _ => flushed_eq V c t) cover

end Cert.KernelIdeal.Layer1Value

end
-- ==== Proof.Layer2Region.lean ====
/-
  A residual layer's launch, from blocks to the array.

  The grid has 25 points; point `t` reads rows `4000·t … 4000·t + 3999` of the features and of the neighbourhood
  means, the two whole weights and the five whole parameter rows, and writes back the same rows of the result. A
  row of the result depends only on that row of the features and of the means: the blocks are restrictions of ONE
  function `G` of the arrays as the launch finds them, and the 25 blocks tile the 100000 rows.
-/
import proofs.«102266_j41506563948594_2_alg».proof.Proof.Gen.KernelIdeal.Frame
import proofs.«102266_j41506563948594_2_alg».proof.Proof.BlockPayload
import Idealize.ShloMosaic.Lib.Pipeline.Value

set_option maxRecDepth 16384

noncomputable section

namespace Cert.KernelIdeal.Layer2Value

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's result as one function of the arrays the launch finds: row `n`, feature `f`. -/
def G (h a : S100000x128.Idx → EReal) (Wl : S128x128.Idx → EReal) (bl : S1x128.Idx → EReal) (Wr : S128x128.Idx → EReal)
    (g beta mu var : S1x128.Idx → EReal) : S100000x128.Idx → EReal :=
  fun i => h (ix2 (i 0) (i 1)) + max (Resid.bn (((∑ k : Fin 128, a (ix2 (i 0) k) * Wl (ix2 k (i 1))) + bl (ix2 (0 : Fin 1) (i 1)))
      + ∑ k : Fin 128, h (ix2 (i 0) k) * Wr (ix2 k (i 1)))
    (mu (ix2 (0 : Fin 1) (i 1))) (g (ix2 (0 : Fin 1) (i 1))) (var (ix2 (0 : Fin 1) (i 1))) (beta (ix2 (0 : Fin 1) (i 1)))) 0

/-- The index maps over the grid: the two row windows move with the result's rows, every other window stays at
    its one block, and the result's row block stays below 25. -/
theorem idx_facts : ∀ t : Fin cfg2.N, win2_0.index t (0 : Fin 2) = win2_9.index t (0 : Fin 2)
    ∧ win2_0.index t (1 : Fin 2) = 0 ∧ win2_9.index t (1 : Fin 2) = 0
    ∧ win2_1.index t (0 : Fin 2) = win2_9.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 24 :=
  (by decide +kernel : ∀ t : Fin grid2.N, _)

/-- Every row block is some point's. -/
theorem idx_onto : ∀ q0 : Fin 25, ∃ t : Fin cfg2.N, win2_9.index t = ![q0.val, 0] :=
  (by decide +kernel : ∀ q0 : Fin 25, ∃ t : Fin grid2.N, win2_9.index t = ![q0.val, 0])

/-- Row `p` of the feature block at point `t` is row `4000·t + p` of the features. -/
theorem rows_at (c : Dev nD) (t : Fin cfg2.N) (p : Fin 4000) (k : Fin 128) (n : Fin 100000)
    (hn : n.val = win2_9.index t (0 : Fin 2) * 4000 + p.val) :
    iblk2 V c 0 t (ix2 p k) = V c main_v50 (ix2 n k) := by
  obtain ⟨e0, e1, -⟩ := idx_facts t
  show V c main_v50 (((cfg2.win 0).blk t).view.emb (ix2 p k)) = V c main_v50 (ix2 n k)
  refine congrArg (V c main_v50) (funext fun a => Fin.ext ?_)
  match a with
  | ⟨0, _⟩ => show win2_0.index t (0 : Fin 2) * 4000 + 1 * p.val = n.val; omega
  | ⟨1, _⟩ => show win2_0.index t (1 : Fin 2) * 128 + 1 * k.val = k.val; omega

/-- Row `p` of the means' block at point `t` is row `4000·t + p` of the means. -/
theorem means_at (c : Dev nD) (t : Fin cfg2.N) (p : Fin 4000) (k : Fin 128) (n : Fin 100000)
    (hn : n.val = win2_9.index t (0 : Fin 2) * 4000 + p.val) :
    iblk2 V c 1 t (ix2 p k) = V c main_v62 (ix2 n k) := by
  obtain ⟨-, -, -, e0, e1, -⟩ := idx_facts t
  show V c main_v62 (((cfg2.win 1).blk t).view.emb (ix2 p k)) = V c main_v62 (ix2 n k)
  refine congrArg (V c main_v62) (funext fun a => Fin.ext ?_)
  match a with
  | ⟨0, _⟩ => show win2_1.index t (0 : Fin 2) * 4000 + 1 * p.val = n.val; omega
  | ⟨1, _⟩ => show win2_1.index t (1 : Fin 2) * 128 + 1 * k.val = k.val; omega

/-- Each weight's block at any point is the whole weight. -/
theorem weightl_at (c : Dev nD) (t : Fin cfg2.N) (k f : Fin 128) :
    iblk2 V c 2 t (ix2 k f) = V c main_v64 (ix2 k f) := by
  obtain ⟨-, -, -, -, -, e0, e1, -⟩ := idx_facts t
  show V c main_v64 (((cfg2.win 2).blk t).view.emb (ix2 k f)) = V c main_v64 (ix2 k f)
  refine congrArg (V c main_v64) (funext fun a => Fin.ext ?_)
  match a with
  | ⟨0, _⟩ => show win2_2.index t (0 : Fin 2) * 128 + 1 * k.val = k.val; omega
  | ⟨1, _⟩ => show win2_2.index t (1 : Fin 2) * 128 + 1 * f.val = f.val; omega
theorem weightr_at (c : Dev nD) (t : Fin cfg2.N) (k f : Fin 128) :
    iblk2 V c 4 t (ix2 k f) = V c main_v68 (ix2 k f) := by
  obtain ⟨-, -, -, -, -, -, -, -, -, e0, e1, -⟩ := idx_facts t
  show V c main_v68 (((cfg2.win 4).blk t).view.emb (ix2 k f)) = V c main_v68 (ix2 k f)
  refine congrArg (V c main_v68) (funext fun a => Fin.ext ?_)
  match a with
  | ⟨0, _⟩ => show win2_4.index t (0 : Fin 2) * 128 + 1 * k.val = k.val; omega
  | ⟨1, _⟩ => show win2_4.index t (1 : Fin 2) * 128 + 1 * f.val = f.val; omega

/-- Each parameter row's block at any point is the whole row. -/
theorem row3_at (c : Dev nD) (t : Fin cfg2.N) (f : Fin 128) :
    iblk2 V c 3 t (ix2 (0 : Fin 1) f) = V c main_v77 (ix2 (0 : Fin 1) f) := by
  obtain ⟨-, -, -, -, -, -, -, e0, e1, -⟩ := idx_facts t
  show V c main_v77 (((cfg2.win 3).blk t).view.emb (ix2 (0 : Fin 1) f)) = V c main_v77 (ix2 (0 : Fin 1) f)
  refine congrArg (V c main_v77) (funext fun a => Fin.ext ?_)
  match a with
  | ⟨0, _⟩ => show win2_3.index t (0 : Fin 2) * 1 + 1 * 0 = 0; omega
  | ⟨1, _⟩ => show win2_3.index t (1 : Fin 2) * 128 + 1 * f.val = f.val; omega
theorem row5_at (c : Dev nD) (t : Fin cfg2.N) (f : Fin 128) :
    iblk2 V c 5 t (ix2 (0 : Fin 1) f) = V c main_v78 (ix2 (0 : Fin 1) f) := by
  obtain ⟨-, -, -, -, -, -, -, -, -, -, -, e0, e1, -⟩ := idx_facts t
  show V c main_v78 (((cfg2.win 5).blk t).view.emb (ix2 (0 : Fin 1) f)) = V c main_v78 (ix2 (0 : Fin 1) f)
  refine congrArg (V c main_v78) (funext fun a => Fin.ext ?_)
  match a with
  | ⟨0, _⟩ => show win2_5.index t (0 : Fin 2) * 1 + 1 * 0 = 0; omega
  | ⟨1, _⟩ => show win2_5.index t (1 : Fin 2) * 128 + 1 * f.val = f.val; omega
theorem row6_at (c : Dev nD) (t : Fin cfg2.N) (f : Fin 128) :
    iblk2 V c 6 t (ix2 (0 : Fin 1) f) = V c main_v79 (ix2 (0 : Fin 1) f) := by
  obtain ⟨-, -, -, -, -, -, -, -, -, -, -, -, -, e0, e1, -⟩ := idx_facts t
  show V c main_v79 (((cfg2.win 6).blk t).view.emb (ix2 (0 : Fin 1) f)) = V c main_v79 (ix2 (0 : Fin 1) f)
  refine congrArg (V c main_v79) (funext fun a => Fin.ext ?_)
  match a with
  | ⟨0, _⟩ => show win2_6.index t (0 : Fin 2) * 1 + 1 * 0 = 0; omega
  | ⟨1, _⟩ => show win2_6.index t (1 : Fin 2) * 128 + 1 * f.val = f.val; omega
theorem row7_at (c : Dev nD) (t : Fin cfg2.N) (f : Fin 128) :
    iblk2 V c 7 t (ix2 (0 : Fin 1) f) = V c main_v80 (ix2 (0 : Fin 1) f) := by
  obtain ⟨-, -, -, -, -, -, -, -, -, -, -, -, -, -, -, e0, e1, -⟩ := idx_facts t
  show V c main_v80 (((cfg2.win 7).blk t).view.emb (ix2 (0 : Fin 1) f)) = V c main_v80 (ix2 (0 : Fin 1) f)
  refine congrArg (V c main_v80) (funext fun a => Fin.ext ?_)
  match a with
  | ⟨0, _⟩ => show win2_7.index t (0 : Fin 2) * 1 + 1 * 0 = 0; omega
  | ⟨1, _⟩ => show win2_7.index t (1 : Fin 2) * 128 + 1 * f.val = f.val; omega
theorem row8_at (c : Dev nD) (t : Fin cfg2.N) (f : Fin 128) :
    iblk2 V c 8 t (ix2 (0 : Fin 1) f) = V c main_v81 (ix2 (0 : Fin 1) f) := by
  obtain ⟨-, -, -, -, -, -, -, -, -, -, -, -, -, -, -, -, -, e0, e1, -⟩ := idx_facts t
  show V c main_v81 (((cfg2.win 8).blk t).view.emb (ix2 (0 : Fin 1) f)) = V c main_v81 (ix2 (0 : Fin 1) f)
  refine congrArg (V c main_v81) (funext fun a => Fin.ext ?_)
  match a with
  | ⟨0, _⟩ => show win2_8.index t (0 : Fin 2) * 1 + 1 * 0 = 0; omega
  | ⟨1, _⟩ => show win2_8.index t (1 : Fin 2) * 128 + 1 * f.val = f.val; omega

/-- WHAT POINT `t` WRITES BACK is block `t` of `G` of the arrays as the launch finds them. -/
theorem flushed_eq (c : Dev nD) (t : Fin cfg2.N) :
    (dat2 V c).flushed 9 t = ((cfg2.win 9).blk t).view.read (Elt Ideal)
      (G (V c main_v50) (V c main_v62) (V c main_v64) (V c main_v77) (V c main_v68) (V c main_v78) (V c main_v79) (V c main_v80) (V c main_v81)) := by
  show (cfg2.win 9).cut (grid2.coords t) ((dat2 V c).after 9 t) = _
  rw [after2_9]
  unfold out2_9
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, e91, -⟩ := idx_facts t
  have hrow : (((cfg2.win 9).blk t).view.emb (ix2 p q) 0).val = win2_9.index t (0 : Fin 2) * 4000 + p.val := by
    show win2_9.index t (0 : Fin 2) * 4000 + 1 * p.val = _; omega
  have hcol : ((cfg2.win 9).blk t).view.emb (ix2 p q) 1 = q := Fin.ext (by
    show win2_9.index t (1 : Fin 2) * 128 + 1 * q.val = q.val; omega)
  refine (sage_at2 (iblk2 V c 0 t) (iblk2 V c 1 t) (iblk2 V c 2 t) (iblk2 V c 4 t) (iblk2 V c 3 t) (iblk2 V c 5 t) (iblk2 V c 8 t) (iblk2 V c 7 t) (iblk2 V c 6 t) p q).trans ?_
  show _ = G _ _ _ _ _ _ _ _ _ (((cfg2.win 9).blk t).view.emb (ix2 p q))
  unfold G
  rw [hcol, row3_at, row5_at, row6_at, row7_at, row8_at]
  simp only [weightl_at, weightr_at, rows_at V c t p _ _ hrow, means_at V c t p _ _ hrow]

/-- An index of the result is in point `t`'s block iff each coordinate is in the block's range on its axis. -/
theorem mem_blk (t : Fin cfg2.N) (i : S100000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v82).slice (win2_9.rect t)).set ↔ _
  rw [View.set_slice_whole, Rect.mem_set_unit]
  exact Iff.rfl

/-- The 25 row blocks tile the result: row `n` is in block `n / 4000`. -/
theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ := idx_onto ⟨(i 0).val / 4000, by omega⟩
  have q0 : win2_9.index t (0 : Fin 2) = (i 0).val / 4000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 4000 ≤ (i 0).val ∧ (i 0).val < win2_9.index t (0 : Fin 2) * 4000 + 4000; omega
  | ⟨1, _⟩ => show win2_9.index t (1 : Fin 2) * 128 ≤ (i 1).val ∧ (i 1).val < win2_9.index t (1 : Fin 2) * 128 + 128; omega

/-- THE RESULT ARRAY after the launch is `G` of the arrays as the launch finds them. -/
theorem final (c : Dev nD) : (dat2 V c).arrAt 9 cfg2.N
    = G (V c main_v50) (V c main_v62) (V c main_v64) (V c main_v77) (V c main_v68) (V c main_v78) (V c main_v79) (V c main_v80) (V c main_v81) :=
  (dat2 V c).arrAt_eq_of_cover 9 _ (fun t _ => flushed_eq V c t) cover

end Cert.KernelIdeal.Layer2Value

end
-- ==== Proof.Layer3Region.lean ====
/-
  A residual layer's launch, from blocks to the array.

  The grid has 25 points; point `t` reads rows `4000·t … 4000·t + 3999` of the features and of the neighbourhood
  means, the two whole weights and the five whole parameter rows, and writes back the same rows of the result. A
  row of the result depends only on that row of the features and of the means: the blocks are restrictions of ONE
  function `G` of the arrays as the launch finds them, and the 25 blocks tile the 100000 rows.
-/
import proofs.«102266_j41506563948594_2_alg».proof.Proof.Gen.KernelIdeal.Frame
import proofs.«102266_j41506563948594_2_alg».proof.Proof.BlockPayload
import Idealize.ShloMosaic.Lib.Pipeline.Value

set_option maxRecDepth 16384

noncomputable section

namespace Cert.KernelIdeal.Layer3Value

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's result as one function of the arrays the launch finds: row `n`, feature `f`. -/
def G (h a : S100000x128.Idx → EReal) (Wl : S128x128.Idx → EReal) (bl : S1x128.Idx → EReal) (Wr : S128x128.Idx → EReal)
    (g beta mu var : S1x128.Idx → EReal) : S100000x128.Idx → EReal :=
  fun i => h (ix2 (i 0) (i 1)) + max (Resid.bn (((∑ k : Fin 128, a (ix2 (i 0) k) * Wl (ix2 k (i 1))) + bl (ix2 (0 : Fin 1) (i 1)))
      + ∑ k : Fin 128, h (ix2 (i 0) k) * Wr (ix2 k (i 1)))
    (mu (ix2 (0 : Fin 1) (i 1))) (g (ix2 (0 : Fin 1) (i 1))) (var (ix2 (0 : Fin 1) (i 1))) (beta (ix2 (0 : Fin 1) (i 1)))) 0

/-- The index maps over the grid: the two row windows move with the result's rows, every other window stays at
    its one block, and the result's row block stays below 25. -/
theorem idx_facts : ∀ t : Fin cfg3.N, win3_0.index t (0 : Fin 2) = win3_9.index t (0 : Fin 2)
    ∧ win3_0.index t (1 : Fin 2) = 0 ∧ win3_9.index t (1 : Fin 2) = 0
    ∧ win3_1.index t (0 : Fin 2) = win3_9.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) ≤ 24 :=
  (by decide +kernel : ∀ t : Fin grid3.N, _)

/-- Every row block is some point's. -/
theorem idx_onto : ∀ q0 : Fin 25, ∃ t : Fin cfg3.N, win3_9.index t = ![q0.val, 0] :=
  (by decide +kernel : ∀ q0 : Fin 25, ∃ t : Fin grid3.N, win3_9.index t = ![q0.val, 0])

/-- Row `p` of the feature block at point `t` is row `4000·t + p` of the features. -/
theorem rows_at (c : Dev nD) (t : Fin cfg3.N) (p : Fin 4000) (k : Fin 128) (n : Fin 100000)
    (hn : n.val = win3_9.index t (0 : Fin 2) * 4000 + p.val) :
    iblk3 V c 0 t (ix2 p k) = V c main_v82 (ix2 n k) := by
  obtain ⟨e0, e1, -⟩ := idx_facts t
  show V c main_v82 (((cfg3.win 0).blk t).view.emb (ix2 p k)) = V c main_v82 (ix2 n k)
  refine congrArg (V c main_v82) (funext fun a => Fin.ext ?_)
  match a with
  | ⟨0, _⟩ => show win3_0.index t (0 : Fin 2) * 4000 + 1 * p.val = n.val; omega
  | ⟨1, _⟩ => show win3_0.index t (1 : Fin 2) * 128 + 1 * k.val = k.val; omega

/-- Row `p` of the means' block at point `t` is row `4000·t + p` of the means. -/
theorem means_at (c : Dev nD) (t : Fin cfg3.N) (p : Fin 4000) (k : Fin 128) (n : Fin 100000)
    (hn : n.val = win3_9.index t (0 : Fin 2) * 4000 + p.val) :
    iblk3 V c 1 t (ix2 p k) = V c main_v94 (ix2 n k) := by
  obtain ⟨-, -, -, e0, e1, -⟩ := idx_facts t
  show V c main_v94 (((cfg3.win 1).blk t).view.emb (ix2 p k)) = V c main_v94 (ix2 n k)
  refine congrArg (V c main_v94) (funext fun a => Fin.ext ?_)
  match a with
  | ⟨0, _⟩ => show win3_1.index t (0 : Fin 2) * 4000 + 1 * p.val = n.val; omega
  | ⟨1, _⟩ => show win3_1.index t (1 : Fin 2) * 128 + 1 * k.val = k.val; omega

/-- Each weight's block at any point is the whole weight. -/
theorem weightl_at (c : Dev nD) (t : Fin cfg3.N) (k f : Fin 128) :
    iblk3 V c 2 t (ix2 k f) = V c main_v96 (ix2 k f) := by
  obtain ⟨-, -, -, -, -, e0, e1, -⟩ := idx_facts t
  show V c main_v96 (((cfg3.win 2).blk t).view.emb (ix2 k f)) = V c main_v96 (ix2 k f)
  refine congrArg (V c main_v96) (funext fun a => Fin.ext ?_)
  match a with
  | ⟨0, _⟩ => show win3_2.index t (0 : Fin 2) * 128 + 1 * k.val = k.val; omega
  | ⟨1, _⟩ => show win3_2.index t (1 : Fin 2) * 128 + 1 * f.val = f.val; omega
theorem weightr_at (c : Dev nD) (t : Fin cfg3.N) (k f : Fin 128) :
    iblk3 V c 4 t (ix2 k f) = V c main_v100 (ix2 k f) := by
  obtain ⟨-, -, -, -, -, -, -, -, -, e0, e1, -⟩ := idx_facts t
  show V c main_v100 (((cfg3.win 4).blk t).view.emb (ix2 k f)) = V c main_v100 (ix2 k f)
  refine congrArg (V c main_v100) (funext fun a => Fin.ext ?_)
  match a with
  | ⟨0, _⟩ => show win3_4.index t (0 : Fin 2) * 128 + 1 * k.val = k.val; omega
  | ⟨1, _⟩ => show win3_4.index t (1 : Fin 2) * 128 + 1 * f.val = f.val; omega

/-- Each parameter row's block at any point is the whole row. -/
theorem row3_at (c : Dev nD) (t : Fin cfg3.N) (f : Fin 128) :
    iblk3 V c 3 t (ix2 (0 : Fin 1) f) = V c main_v109 (ix2 (0 : Fin 1) f) := by
  obtain ⟨-, -, -, -, -, -, -, e0, e1, -⟩ := idx_facts t
  show V c main_v109 (((cfg3.win 3).blk t).view.emb (ix2 (0 : Fin 1) f)) = V c main_v109 (ix2 (0 : Fin 1) f)
  refine congrArg (V c main_v109) (funext fun a => Fin.ext ?_)
  match a with
  | ⟨0, _⟩ => show win3_3.index t (0 : Fin 2) * 1 + 1 * 0 = 0; omega
  | ⟨1, _⟩ => show win3_3.index t (1 : Fin 2) * 128 + 1 * f.val = f.val; omega
theorem row5_at (c : Dev nD) (t : Fin cfg3.N) (f : Fin 128) :
    iblk3 V c 5 t (ix2 (0 : Fin 1) f) = V c main_v110 (ix2 (0 : Fin 1) f) := by
  obtain ⟨-, -, -, -, -, -, -, -, -, -, -, e0, e1, -⟩ := idx_facts t
  show V c main_v110 (((cfg3.win 5).blk t).view.emb (ix2 (0 : Fin 1) f)) = V c main_v110 (ix2 (0 : Fin 1) f)
  refine congrArg (V c main_v110) (funext fun a => Fin.ext ?_)
  match a with
  | ⟨0, _⟩ => show win3_5.index t (0 : Fin 2) * 1 + 1 * 0 = 0; omega
  | ⟨1, _⟩ => show win3_5.index t (1 : Fin 2) * 128 + 1 * f.val = f.val; omega
theorem row6_at (c : Dev nD) (t : Fin cfg3.N) (f : Fin 128) :
    iblk3 V c 6 t (ix2 (0 : Fin 1) f) = V c main_v111 (ix2 (0 : Fin 1) f) := by
  obtain ⟨-, -, -, -, -, -, -, -, -, -, -, -, -, e0, e1, -⟩ := idx_facts t
  show V c main_v111 (((cfg3.win 6).blk t).view.emb (ix2 (0 : Fin 1) f)) = V c main_v111 (ix2 (0 : Fin 1) f)
  refine congrArg (V c main_v111) (funext fun a => Fin.ext ?_)
  match a with
  | ⟨0, _⟩ => show win3_6.index t (0 : Fin 2) * 1 + 1 * 0 = 0; omega
  | ⟨1, _⟩ => show win3_6.index t (1 : Fin 2) * 128 + 1 * f.val = f.val; omega
theorem row7_at (c : Dev nD) (t : Fin cfg3.N) (f : Fin 128) :
    iblk3 V c 7 t (ix2 (0 : Fin 1) f) = V c main_v112 (ix2 (0 : Fin 1) f) := by
  obtain ⟨-, -, -, -, -, -, -, -, -, -, -, -, -, -, -, e0, e1, -⟩ := idx_facts t
  show V c main_v112 (((cfg3.win 7).blk t).view.emb (ix2 (0 : Fin 1) f)) = V c main_v112 (ix2 (0 : Fin 1) f)
  refine congrArg (V c main_v112) (funext fun a => Fin.ext ?_)
  match a with
  | ⟨0, _⟩ => show win3_7.index t (0 : Fin 2) * 1 + 1 * 0 = 0; omega
  | ⟨1, _⟩ => show win3_7.index t (1 : Fin 2) * 128 + 1 * f.val = f.val; omega
theorem row8_at (c : Dev nD) (t : Fin cfg3.N) (f : Fin 128) :
    iblk3 V c 8 t (ix2 (0 : Fin 1) f) = V c main_v113 (ix2 (0 : Fin 1) f) := by
  obtain ⟨-, -, -, -, -, -, -, -, -, -, -, -, -, -, -, -, -, e0, e1, -⟩ := idx_facts t
  show V c main_v113 (((cfg3.win 8).blk t).view.emb (ix2 (0 : Fin 1) f)) = V c main_v113 (ix2 (0 : Fin 1) f)
  refine congrArg (V c main_v113) (funext fun a => Fin.ext ?_)
  match a with
  | ⟨0, _⟩ => show win3_8.index t (0 : Fin 2) * 1 + 1 * 0 = 0; omega
  | ⟨1, _⟩ => show win3_8.index t (1 : Fin 2) * 128 + 1 * f.val = f.val; omega

/-- WHAT POINT `t` WRITES BACK is block `t` of `G` of the arrays as the launch finds them. -/
theorem flushed_eq (c : Dev nD) (t : Fin cfg3.N) :
    (dat3 V c).flushed 9 t = ((cfg3.win 9).blk t).view.read (Elt Ideal)
      (G (V c main_v82) (V c main_v94) (V c main_v96) (V c main_v109) (V c main_v100) (V c main_v110) (V c main_v111) (V c main_v112) (V c main_v113)) := by
  show (cfg3.win 9).cut (grid3.coords t) ((dat3 V c).after 9 t) = _
  rw [after3_9]
  unfold out3_9
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, e91, -⟩ := idx_facts t
  have hrow : (((cfg3.win 9).blk t).view.emb (ix2 p q) 0).val = win3_9.index t (0 : Fin 2) * 4000 + p.val := by
    show win3_9.index t (0 : Fin 2) * 4000 + 1 * p.val = _; omega
  have hcol : ((cfg3.win 9).blk t).view.emb (ix2 p q) 1 = q := Fin.ext (by
    show win3_9.index t (1 : Fin 2) * 128 + 1 * q.val = q.val; omega)
  refine (sage_at3 (iblk3 V c 0 t) (iblk3 V c 1 t) (iblk3 V c 2 t) (iblk3 V c 4 t) (iblk3 V c 3 t) (iblk3 V c 5 t) (iblk3 V c 8 t) (iblk3 V c 7 t) (iblk3 V c 6 t) p q).trans ?_
  show _ = G _ _ _ _ _ _ _ _ _ (((cfg3.win 9).blk t).view.emb (ix2 p q))
  unfold G
  rw [hcol, row3_at, row5_at, row6_at, row7_at, row8_at]
  simp only [weightl_at, weightr_at, rows_at V c t p _ _ hrow, means_at V c t p _ _ hrow]

/-- An index of the result is in point `t`'s block iff each coordinate is in the block's range on its axis. -/
theorem mem_blk (t : Fin cfg3.N) (i : S100000x128.Idx) :
    i ∈ ((cfg3.win 9).blk t).view.set ↔ ∀ a : Fin 2, win3_9.index t a * S4000x128.size a ≤ (i a).val ∧ (i a).val < win3_9.index t a * S4000x128.size a + S4000x128.size a := by
  show i ∈ ((View.whole main_v114).slice (win3_9.rect t)).set ↔ _
  rw [View.set_slice_whole, Rect.mem_set_unit]
  exact Iff.rfl

/-- The 25 row blocks tile the result: row `n` is in block `n / 4000`. -/
theorem cover (i : S100000x128.Idx) :
    ∃ t : Fin cfg3.N, (cfg3.win 9).flush t = true ∧ i ∈ ((cfg3.win 9).blk t).view.set := by
  have hi0 : (i 0).val < 100000 := (i 0).isLt
  have hi1 : (i 1).val < 128 := (i 1).isLt
  obtain ⟨t, ht⟩ := idx_onto ⟨(i 0).val / 4000, by omega⟩
  have q0 : win3_9.index t (0 : Fin 2) = (i 0).val / 4000 := congrFun ht 0
  have q1 : win3_9.index t (1 : Fin 2) = 0 := congrFun ht 1
  refine ⟨t, flush3_9 t, ?_⟩
  rw [mem_blk]
  intro a
  match a with
  | ⟨0, _⟩ => show win3_9.index t (0 : Fin 2) * 4000 ≤ (i 0).val ∧ (i 0).val < win3_9.index t (0 : Fin 2) * 4000 + 4000; omega
  | ⟨1, _⟩ => show win3_9.index t (1 : Fin 2) * 128 ≤ (i 1).val ∧ (i 1).val < win3_9.index t (1 : Fin 2) * 128 + 128; omega

/-- THE RESULT ARRAY after the launch is `G` of the arrays as the launch finds them. -/
theorem final (c : Dev nD) : (dat3 V c).arrAt 9 cfg3.N
    = G (V c main_v82) (V c main_v94) (V c main_v96) (V c main_v109) (V c main_v100) (V c main_v110) (V c main_v111) (V c main_v112) (V c main_v113) :=
  (dat3 V c).arrAt_eq_of_cover 9 _ (fun t _ => flushed_eq V c t) cover

end Cert.KernelIdeal.Layer3Value

end
-- ==== Proof.ReadoutRegion.lean ====
/-
  The read-out's launch, from blocks to the array.

  The grid has 25 points; point `t` reads rows `4000·t … 4000·t + 3999` of the features, the whole (padded)
  weight and the whole (padded) bias row, and writes back the same rows of the result: the blocks are restrictions
  of ONE function `G` of the arrays as the launch finds them, and the 25 blocks tile the 100000 rows.
-/
import proofs.«102266_j41506563948594_2_alg».proof.Proof.Gen.KernelIdeal.Frame
import proofs.«102266_j41506563948594_2_alg».proof.Proof.BlockPayload
import Idealize.ShloMosaic.Lib.Pipeline.Value

set_option maxRecDepth 16384

noncomputable section

namespace Cert.KernelIdeal.ReadoutValue

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's result as one function of the arrays it finds: row `n`, column `f` (of 128). -/
def G (h : S100000x128.Idx → EReal) (W : S128x128.Idx → EReal) (b : S1x128.Idx → EReal) : S100000x128.Idx → EReal :=
  fun i => (∑ k : Fin 128, h (ix2 (i 0) k) * W (ix2 k (i 1))) + b (ix2 (0 : Fin 1) (i 1))

/-- The index maps over the grid: the feature rows move with the result's rows, the weight and the bias row stay at
    their one block, and the result's row block stays below 25. -/
theorem idx_facts : ∀ t : Fin cfg4.N, win4_0.index t (0 : Fin 2) = win4_3.index t (0 : Fin 2)
    ∧ win4_0.index t (1 : Fin 2) = 0 ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 24 :=
  (by decide +kernel : ∀ t : Fin grid4.N, _)

/-- Every row block is some point's. -/
theorem idx_onto : ∀ q0 : Fin 25, ∃ t : Fin cfg4.N, win4_3.index t = ![q0.val, 0] :=
  (by decide +kernel : ∀ q0 : Fin 25, ∃ t : Fin grid4.N, win4_3.index t = ![q0.val, 0])

/-- Row `p` of the feature block at point `t` is row `4000·t + p` of the features. -/
theorem rows_at (c : Dev nD) (t : Fin cfg4.N) (p : Fin 4000) (k : Fin 128) (n : Fin 100000)
    (hn : n.val = win4_3.index t (0 : Fin 2) * 4000 + p.val) :
    iblk4 V c 0 t (ix2 p k) = V c main_v114 (ix2 n k) := by
  obtain ⟨e0, e1, -⟩ := idx_facts t
  show V c main_v114 (((cfg4.win 0).blk t).view.emb (ix2 p k)) = V c main_v114 (ix2 n k)
  refine congrArg (V c main_v114) (funext fun a => Fin.ext ?_)
  match a with
  | ⟨0, _⟩ => show win4_0.index t (0 : Fin 2) * 4000 + 1 * p.val = n.val; omega
  | ⟨1, _⟩ => show win4_0.index t (1 : Fin 2) * 128 + 1 * k.val = k.val; omega

/-- The weight block at any point is the whole weight. -/
theorem weight_at (c : Dev nD) (t : Fin cfg4.N) (k f : Fin 128) :
    iblk4 V c 1 t (ix2 k f) = V c main_v117 (ix2 k f) := by
  obtain ⟨-, -, -, e0, e1, -⟩ := idx_facts t
  show V c main_v117 (((cfg4.win 1).blk t).view.emb (ix2 k f)) = V c main_v117 (ix2 k f)
  refine congrArg (V c main_v117) (funext fun a => Fin.ext ?_)
  match a with
  | ⟨0, _⟩ => show win4_1.index t (0 : Fin 2) * 128 + 1 * k.val = k.val; omega
  | ⟨1, _⟩ => show win4_1.index t (1 : Fin 2) * 128 + 1 * f.val = f.val; omega

/-- The bias row's block at any point is the whole row. -/
theorem row2_at (c : Dev nD) (t : Fin cfg4.N) (f : Fin 128) :
    iblk4 V c 2 t (ix2 (0 : Fin 1) f) = V c main_v121 (ix2 (0 : Fin 1) f) := by
  obtain ⟨-, -, -, -, -, e0, e1, -⟩ := idx_facts t
  show V c main_v121 (((cfg4.win 2).blk t).view.emb (ix2 (0 : Fin 1) f)) = V c main_v121 (ix2 (0 : Fin 1) f)
  refine congrArg (V c main_v121) (funext fun a => Fin.ext ?_)
  match a with
  | ⟨0, _⟩ => show win4_2.index t (0 : Fin 2) * 1 + 1 * 0 = 0; omega
  | ⟨1, _⟩ => show win4_2.index t (1 : Fin 2) * 128 + 1 * f.val = f.val; omega

/-- WHAT POINT `t` WRITES BACK is block `t` of `G` of the arrays as the launch finds them. -/
theorem flushed_eq (c : Dev nD) (t : Fin cfg4.N) :
    (dat4 V c).flushed 3 t = ((cfg4.win 3).blk t).view.read (Elt Ideal) (G (V c main_v114) (V c main_v117) (V c main_v121)) := by
  show (cfg4.win 3).cut (grid4.coords t) ((dat4 V c).after 3 t) = _
  rw [after4_3]
  unfold out4_3
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  obtain ⟨-, -, e31, -⟩ := idx_facts t
  have hrow : (((cfg4.win 3).blk t).view.emb (ix2 p q) 0).val = win4_3.index t (0 : Fin 2) * 4000 + p.val := by
    show win4_3.index t (0 : Fin 2) * 4000 + 1 * p.val = _; omega
  have hcol : ((cfg4.win 3).blk t).view.emb (ix2 p q) 1 = q := Fin.ext (by
    show win4_3.index t (1 : Fin 2) * 128 + 1 * q.val = q.val; omega)
  refine (final_at (iblk4 V c 0 t) (iblk4 V c 1 t) (iblk4 V c 2 t) p q).trans ?_
  show _ = G _ _ _ (((cfg4.win 3).blk t).view.emb (ix2 p q))
  unfold G
  rw [hcol, row2_at]
  simp only [weight_at, rows_at V c t p _ _ hrow]

/-- An index of the result is in point `t`'s block iff each coordinate is in the block's range on its axis. -/
theorem mem_blk (t : Fin cfg4.N) (i : S100000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v122).slice (win4_3.rect t)).set ↔ _
  rw [View.set_slice_whole, Rect.mem_set_unit]
  exact Iff.rfl

/-- The 25 row blocks tile the result: row `n` is in block `n / 4000`. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 4000, by omega⟩
  have q0 : win4_3.index t (0 : Fin 2) = (i 0).val / 4000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 128 ≤ (i 1).val ∧ (i 1).val < win4_3.index t (1 : Fin 2) * 128 + 128; omega

/-- THE RESULT ARRAY after the launch is `G` of the arrays as the launch finds them. -/
theorem final (c : Dev nD) : (dat4 V c).arrAt 3 cfg4.N = G (V c main_v114) (V c main_v117) (V c main_v121) :=
  (dat4 V c).arrAt_eq_of_cover 3 _ (fun t _ => flushed_eq V c t) cover

end Cert.KernelIdeal.ReadoutValue

end
-- ==== Proof.LibPadSet.lean ====
/-
  WRITING A BLOCK INTO AN ARRAY WITH "SET": the scatter whose body returns the update, read at one element.

  A scatter folds point updates over the update indices in row-major order.  When the body is "take the
  update" the value left at a result index is the update of the LAST update index that lands on it, so if
  every update index landing on it carries the same value (in particular, if only one lands there) the
  result holds that value, and a result index that no update lands on keeps the operand's element.
  When every start index is the word zero the landing index of an update index is its window coordinates,
  and for the window "all axes, none inserted" (an array written into the corner at the origin of a larger
  one) that is the update index itself: the block sits in the corner, the rest of the operand is untouched.
-/
import Idealize.ShloMosaic.PureOps.Ideal
import Idealize.ShloMosaic.Lib.ValueIdx
import Idealize.ShloMosaic.Lib.Pipeline.Value

namespace Idealize.ShloMosaic.PadSet

open Idealize.ShloMosaic Idealize.ShloMosaic.ValueIdx

variable {s si u : Shape} {α : Type} {w : Nat}

/-! ## The fold, one element at a time -/

/-- One step of the fold for the body "take the update": update number n (row-major) replaces the element at
    the index it lands on by its own value and leaves every other element; an update that lands outside is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter with the body "take the update" is the fold of step over the update numbers in order. -/
theorem scatter_eq_foldl (d : ScatterDims s si u) (x : s.Idx → α) (idx : IVec si w) (upd : u.Idx → α) :
    Host.scatter d (fun _ b => b) x idx upd = (List.finRange u.numel).foldl (step d idx upd) x := rfl

/-- A step either leaves the element at i' or, when its update lands on i', writes that update there. -/
theorem step_apply (d : ScatterDims s si u) (idx : IVec si w) (upd : u.Idx → α) (r : s.Idx → α) (n : Fin u.numel) (i' : s.Idx) :
    step d idx upd r n i' = if d.resultIdx? (u.rowMajor.symm n) idx = some i' then upd (u.rowMajor.symm n) else r i' := by
  unfold step
  cases hi : d.resultIdx? (u.rowMajor.symm n) idx with
  | none => simp
  | some i =>
    by_cases h : i' = i
    · subst h; simp
    · have : ¬ (i = i') := fun e => h e.symm
      simp [h, this]

/-- If the element at i' is already v and every update of the list that lands on i' carries v, the fold leaves v at i'. -/
theorem foldl_step_of_agree (d : ScatterDims s si u) (idx : IVec si w) (upd : u.Idx → α) (i' : s.Idx) (v : α) :
    ∀ (l : List (Fin u.numel)) (r : s.Idx → α), r i' = v →
      (∀ n ∈ l, d.resultIdx? (u.rowMajor.symm n) idx = some i' → upd (u.rowMajor.symm n) = v) →
      l.foldl (step d idx upd) r i' = v
  | [], _, hr, _ => hr
  | n :: l, r, hr, h => by
    rw [List.foldl_cons]
    refine foldl_step_of_agree d idx upd i' v l _ ?_ fun m hm => h m (List.mem_cons_of_mem _ hm)
    rw [step_apply]
    split
    · next hn => exact h n List.mem_cons_self hn
    · exact hr

/-- If some update of the list lands on i' and every update of the list that lands on i' carries v, the fold leaves v at i',
    whatever was there before. -/
theorem foldl_step_of_hit (d : ScatterDims s si u) (idx : IVec si w) (upd : u.Idx → α) (i' : s.Idx) (v : α)
    (n0 : Fin u.numel) (hn0 : d.resultIdx? (u.rowMajor.symm n0) idx = some i') :
    ∀ (l : List (Fin u.numel)) (r : s.Idx → α), n0 ∈ l →
      (∀ n ∈ l, d.resultIdx? (u.rowMajor.symm n) idx = some i' → upd (u.rowMajor.symm n) = v) →
      l.foldl (step d idx upd) r i' = v
  | [], _, hmem, _ => absurd hmem List.not_mem_nil
  | n :: l, r, hmem, h => by
    rw [List.foldl_cons]
    by_cases hn : d.resultIdx? (u.rowMajor.symm n) idx = some i'
    · refine foldl_step_of_agree d idx upd i' v l _ ?_ fun m hm => h m (List.mem_cons_of_mem _ hm)
      rw [step_apply, if_pos hn]
      exact h n List.mem_cons_self hn
    · have hl : n0 ∈ l := by
        rcases List.mem_cons.1 hmem with e | h'
        · exact absurd (e ▸ hn0) hn
        · exact h'
      exact foldl_step_of_hit d idx upd i' v n0 hn0 l _ hl fun m hm => h m (List.mem_cons_of_mem _ hm)

/-! ## The scatter with the body "take the update", at one element -/

/-- SET, where updates land. If update index j lands on the result index i' and every update index that lands on i'
    carries the same value as j, the scatter whose body returns the update holds upd j at i'. -/
theorem scatter_set_of_agree (d : ScatterDims s si u) (x : s.Idx → α) (idx : IVec si w) (upd : u.Idx → α)
    (j : u.Idx) (i' : s.Idx) (hj : d.resultIdx? j idx = some i')
    (hagree : ∀ j', d.resultIdx? j' idx = some i' → upd j' = upd j) :
    Host.scatter d (fun _ b => b) x idx upd i' = upd j := by
  rw [scatter_eq_foldl]
  refine foldl_step_of_hit d idx upd i' (upd j) (u.rowMajor j) ?_ _ x (List.mem_finRange _) fun n _ hn => hagree _ hn
  rw [Equiv.symm_apply_apply]; exact hj

/-- SET at pairwise distinct landing indices. If no two update indices land on the same result index, the scatter whose
    body returns the update holds upd j at the index i' that update index j lands on. -/
theorem scatter_set_of_injective (d : ScatterDims s si u) (x : s.Idx → α) (idx : IVec si w) (upd : u.Idx → α)
    (hinj : ∀ j j' i, d.resultIdx? j idx = some i → d.resultIdx? j' idx = some i → j = j')
    (j : u.Idx) (i' : s.Idx) (hj : d.resultIdx? j idx = some i') :
    Host.scatter d (fun _ b => b) x idx upd i' = upd j :=
  scatter_set_of_agree d x idx upd j i' hj fun j' hj' => by rw [hinj j' j i' hj' hj]

/-- SET, where no update lands. A result index that no update index lands on keeps the operand's element. -/
theorem scatter_set_of_miss (d : ScatterDims s si u) (x : s.Idx → α) (idx : IVec si w) (upd : u.Idx → α)
    (i' : s.Idx) (hmiss : ∀ j, d.resultIdx? j idx ≠ some i') :
    Host.scatter d (fun _ b => b) x idx upd i' = x i' := by
  rw [scatter_eq_foldl]
  exact foldl_step_of_agree d idx upd i' (x i') _ x rfl fun n _ hn => absurd hn (hmiss _)

/-! ## Every start index the word zero: an update lands at its window coordinates -/

/-- When every entry of the scatter indices is the word zero, the window of every update index starts at 0 on every axis. -/
theorem start_eq_zero (d : ScatterDims s si u) (idx : IVec si w) (h0 : ∀ k, idx k = 0#w) (j : u.Idx) (a : Fin s.rank) :
    d.start j idx a = 0 := by
  unfold ScatterDims.start
  split
  · rw [h0]; exact BitVec.toInt_zero
  · rfl

/-- When every entry of the scatter indices is the word zero, update index j lands on the result index i exactly when
    i's coordinate on every axis is j's window coordinate there. -/
theorem resultIdx?_zero_eq_some_iff (d : ScatterDims s si u) (idx : IVec si w) (h0 : ∀ k, idx k = 0#w) (j : u.Idx) (i : s.Idx) :
    d.resultIdx? j idx = some i ↔ ∀ a, (i a).val = d.window j a := by
  have hs := start_eq_zero d idx h0 j
  unfold ScatterDims.resultIdx?
  constructor
  · intro h a
    split at h
    · have e := Option.some.inj h
      rw [← e]; simp [hs a]
    · exact absurd h (by simp)
  · intro h
    have hb : ∀ a, 0 ≤ d.start j idx a + d.window j a ∧ d.start j idx a + d.window j a < s.size a := by
      intro a; rw [hs a]; have := (i a).isLt; have := h a; omega
    rw [dif_pos hb]
    congr 1; funext a; apply Fin.ext; simp [hs a, h a]

/-- SET at zero start indices, where an update lands: if the result index i' has update index j's window coordinates, and
    no other update index has the same window coordinates, the scatter whose body returns the update holds upd j at i'. -/
theorem scatter_set_zero_of_window (d : ScatterDims s si u) (x : s.Idx → α) (idx : IVec si w) (h0 : ∀ k, idx k = 0#w)
    (upd : u.Idx → α) (j : u.Idx) (i' : s.Idx) (hj : ∀ a, (i' a).val = d.window j a)
    (huniq : ∀ j', (∀ a, d.window j' a = d.window j a) → j' = j) :
    Host.scatter d (fun _ b => b) x idx upd i' = upd j := by
  refine scatter_set_of_agree d x idx upd j i' ((resultIdx?_zero_eq_some_iff d idx h0 j i').2 hj) fun j' hj' => ?_
  rw [huniq j' fun a => by rw [← (resultIdx?_zero_eq_some_iff d idx h0 j' i').1 hj' a, hj a]]

/-- SET at zero start indices, where no update lands: a result index that is no update index's window coordinates keeps the
    operand's element. -/
theorem scatter_set_zero_of_miss (d : ScatterDims s si u) (x : s.Idx → α) (idx : IVec si w) (h0 : ∀ k, idx k = 0#w)
    (upd : u.Idx → α) (i' : s.Idx) (hmiss : ∀ j, ¬ ∀ a, (i' a).val = d.window j a) :
    Host.scatter d (fun _ b => b) x idx upd i' = x i' :=
  scatter_set_of_miss d x idx upd i' fun j hj => hmiss j ((resultIdx?_zero_eq_some_iff d idx h0 j i').1 hj)

/-- A constant array of words broadcast to another shape is the constant array: every entry is the same word. -/
theorem broadcastInDim_constantI_apply {s t : Shape} (dims : Fin s.rank → Fin t.rank) (h : s.BroadcastsInDim t dims) (b : BitVec w)
    (k : t.Idx) : broadcastInDim t dims h (constantI s w b) k = b := rfl

/-! ## A rank-2 block written into the corner at the origin of a rank-2 array -/

/-- With both update axes window axes, in order, and no operand axis inserted, the window coordinate of a rank-2 update index
    on each operand axis is its own coordinate on that axis. -/
theorem window2 {m n m' n' : Nat} {si : Shape} (d : ScatterDims ⟨2, ![m, n]⟩ si ⟨2, ![m', n']⟩)
    (huw : d.updateWindowDims = ([0, 1] : List (Fin 2))) (hiw : d.insertedWindowDims = [])
    (k : Fin m') (c : Fin n') : d.window (ix2 k c) 0 = k.val ∧ d.window (ix2 k c) 1 = c.val := by
  obtain ⟨uw, iw, sd, iv, wf⟩ := d
  simp only at huw hiw
  subst huw hiw
  exact ⟨rfl, rfl⟩

/-- A block written with SET into the corner at the origin: x.at[:m', :n'].set(upd) read inside the block. For the scatter of a
    rank-2 update (both axes window axes, none inserted) at start indices all zero, whose body returns the update, the element at
    row k, column c of the result, for (k, c) an index of the update, is the update's element there. -/
theorem scatter_set_corner2 {m n m' n' : Nat} {si : Shape} (d : ScatterDims ⟨2, ![m, n]⟩ si ⟨2, ![m', n']⟩)
    (huw : d.updateWindowDims = ([0, 1] : List (Fin 2))) (hiw : d.insertedWindowDims = [])
    (x : (⟨2, ![m, n]⟩ : Shape).Idx → α) (idx : IVec si w) (h0 : ∀ k, idx k = 0#w)
    (upd : (⟨2, ![m', n']⟩ : Shape).Idx → α) (k : Fin m') (c : Fin n') (hk : k.val < m) (hc : c.val < n) :
    Host.scatter d (fun _ b => b) x idx upd (ix2 ⟨k.val, hk⟩ ⟨c.val, hc⟩) = upd (ix2 k c) := by
  have hwin := window2 d huw hiw
  refine scatter_set_zero_of_window d x idx h0 upd (ix2 k c) _ ?_ ?_
  · intro a
    match a with
    | ⟨0, _⟩ => exact (hwin k c).1.symm
    | ⟨1, _⟩ => exact (hwin k c).2.symm
  · intro j' hj'
    obtain ⟨k', c', rfl⟩ : ∃ k' c', j' = ix2 k' c' := ⟨_, _, eq_ix2 j'⟩
    have e0 := hj' 0
    have e1 := hj' 1
    rw [(hwin k' c').1, (hwin k c).1] at e0
    rw [(hwin k' c').2, (hwin k c).2] at e1
    rw [Fin.ext e0, Fin.ext e1]

/-- A block written with SET into the corner at the origin, read outside the block: an element of the result whose row or
    column is not one of the update's is the operand's element. -/
theorem scatter_set_corner2_outside {m n m' n' : Nat} {si : Shape} (d : ScatterDims ⟨2, ![m, n]⟩ si ⟨2, ![m', n']⟩)
    (huw : d.updateWindowDims = ([0, 1] : List (Fin 2))) (hiw : d.insertedWindowDims = [])
    (x : (⟨2, ![m, n]⟩ : Shape).Idx → α) (idx : IVec si w) (h0 : ∀ k, idx k = 0#w)
    (upd : (⟨2, ![m', n']⟩ : Shape).Idx → α) (k : Fin m) (c : Fin n) (hout : m' ≤ k.val ∨ n' ≤ c.val) :
    Host.scatter d (fun _ b => b) x idx upd (ix2 k c) = x (ix2 k c) := by
  have hwin := window2 d huw hiw
  refine scatter_set_zero_of_miss d x idx h0 upd _ fun j' hj' => ?_
  obtain ⟨k', c', rfl⟩ : ∃ k' c', j' = ix2 k' c' := ⟨_, _, eq_ix2 j'⟩
  have e0 := hj' 0
  have e1 := hj' 1
  rw [(hwin k' c').1] at e0
  rw [(hwin k' c').2] at e1
  have hk' := k'.isLt
  have hc' := c'.isLt
  have e0' : k.val = k'.val := e0
  have e1' : c.val = c'.val := e1
  omega

/-- Columns written with SET: x.at[:, :n'].set(upd) for an update with the operand's rows. The element at row k, column c of the
    result, for c a column of the update, is the update's element there. -/
theorem scatter_set_cols {m n n' : Nat} {si : Shape} (d : ScatterDims ⟨2, ![m, n]⟩ si ⟨2, ![m, n']⟩)
    (huw : d.updateWindowDims = ([0, 1] : List (Fin 2))) (hiw : d.insertedWindowDims = [])
    (x : (⟨2, ![m, n]⟩ : Shape).Idx → α) (idx : IVec si w) (h0 : ∀ k, idx k = 0#w)
    (upd : (⟨2, ![m, n']⟩ : Shape).Idx → α) (k : Fin m) (c : Fin n') (hc : c.val < n) :
    Host.scatter d (fun _ b => b) x idx upd (ix2 k ⟨c.val, hc⟩) = upd (ix2 k c) :=
  scatter_set_corner2 d huw hiw x idx h0 upd k c k.isLt hc

/-! ## A rank-1 block written at the start of a rank-1 array -/

/-- With the update's one axis the window axis and no operand axis inserted, the window coordinate of a rank-1 update index is
    its own coordinate. -/
theorem window1 {n n' : Nat} {si : Shape} (d : ScatterDims ⟨1, ![n]⟩ si ⟨1, ![n']⟩)
    (huw : d.updateWindowDims = ([0] : List (Fin 1))) (hiw : d.insertedWindowDims = [])
    (c : Fin n') : d.window (ix1 c) 0 = c.val := by
  obtain ⟨uw, iw, sd, iv, wf⟩ := d
  simp only at huw hiw
  subst huw hiw
  rfl

/-- A prefix written with SET: x.at[:n'].set(upd) read inside the prefix. For the scatter of a rank-1 update (its axis the window
    axis, none inserted) at start indices all zero, whose body returns the update, the element at position c of the result, for c
    an index of the update, is the update's element there. -/
theorem scatter_set_prefix1 {n n' : Nat} {si : Shape} (d : ScatterDims ⟨1, ![n]⟩ si ⟨1, ![n']⟩)
    (huw : d.updateWindowDims = ([0] : List (Fin 1))) (hiw : d.insertedWindowDims = [])
    (x : (⟨1, ![n]⟩ : Shape).Idx → α) (idx : IVec si w) (h0 : ∀ k, idx k = 0#w)
    (upd : (⟨1, ![n']⟩ : Shape).Idx → α) (c : Fin n') (hc : c.val < n) :
    Host.scatter d (fun _ b => b) x idx upd (ix1 ⟨c.val, hc⟩) = upd (ix1 c) := by
  have hwin := window1 d huw hiw
  refine scatter_set_zero_of_window d x idx h0 upd (ix1 c) _ ?_ ?_
  · intro a
    match a with
    | ⟨0, _⟩ => exact (hwin c).symm
  · intro j' hj'
    obtain ⟨c', rfl⟩ : ∃ c', j' = ix1 c' := ⟨_, eq_ix1 j'⟩
    have e0 := hj' 0
    rw [hwin c', hwin c] at e0
    rw [Fin.ext e0]

/-- A prefix written with SET, read after the prefix: an element of the result at a position that is not one of the update's is
    the operand's element. -/
theorem scatter_set_prefix1_outside {n n' : Nat} {si : Shape} (d : ScatterDims ⟨1, ![n]⟩ si ⟨1, ![n']⟩)
    (huw : d.updateWindowDims = ([0] : List (Fin 1))) (hiw : d.insertedWindowDims = [])
    (x : (⟨1, ![n]⟩ : Shape).Idx → α) (idx : IVec si w) (h0 : ∀ k, idx k = 0#w)
    (upd : (⟨1, ![n']⟩ : Shape).Idx → α) (c : Fin n) (hout : n' ≤ c.val) :
    Host.scatter d (fun _ b => b) x idx upd (ix1 c) = x (ix1 c) := by
  have hwin := window1 d huw hiw
  refine scatter_set_zero_of_miss d x idx h0 upd _ fun j' hj' => ?_
  obtain ⟨c', rfl⟩ : ∃ c', j' = ix1 c' := ⟨_, eq_ix1 j'⟩
  have e0 := hj' 0
  rw [hwin c'] at e0
  have hc' := c'.isLt
  have e0' : c.val = c'.val := e0
  omega

/-! ## Two instances: a [128, 47] block in the corner of a [128, 128] array, and a [47] prefix of a [128] array -/

private def padW : ScatterDims ⟨2, ![128, 128]⟩ ⟨1, ![1]⟩ ⟨2, ![128, 47]⟩ :=
  { updateWindowDims := [0, 1], insertedWindowDims := [], scatterDimsToOperandDims := [1], indexVectorDim := 0 }
private def padB : ScatterDims ⟨1, ![128]⟩ ⟨1, ![1]⟩ ⟨1, ![47]⟩ :=
  { updateWindowDims := [0], insertedWindowDims := [], scatterDimsToOperandDims := [0], indexVectorDim := 0 }

example (h : (⟨0, ![]⟩ : Shape).BroadcastsInDim ⟨1, ![1]⟩ ![]) (x : (⟨2, ![128, 128]⟩ : Shape).Idx → α)
    (upd : (⟨2, ![128, 47]⟩ : Shape).Idx → α) (k : Fin 128) (c : Fin 47) :
    Host.scatter padW (fun _ b => b) x (broadcastInDim ⟨1, ![1]⟩ ![] h (constantI ⟨0, ![]⟩ 32 0#32)) upd (ix2 k ⟨c.val, by omega⟩)
      = upd (ix2 k c) :=
  scatter_set_cols padW rfl rfl x _ (fun _ => rfl) upd k c _

example (h : (⟨0, ![]⟩ : Shape).BroadcastsInDim ⟨1, ![1]⟩ ![]) (x : (⟨1, ![128]⟩ : Shape).Idx → α)
    (upd : (⟨1, ![47]⟩ : Shape).Idx → α) (c : Fin 47) :
    Host.scatter padB (fun _ b => b) x (broadcastInDim ⟨1, ![1]⟩ ![] h (constantI ⟨0, ![]⟩ 32 0#32)) upd (ix1 ⟨c.val, by omega⟩)
      = upd (ix1 c) :=
  scatter_set_prefix1 padB rfl rfl x _ (fun _ => rfl) upd c _

end Idealize.ShloMosaic.PadSet
-- ==== Proof.RegionLayers.lean ====
/-
  Each launch's whole-array function is the network's layer.

  A launch takes its per-feature parameters as one-row matrices; read at `(0, f)` such a matrix is the parameter
  vector's entry `f`, so the launch's function of the arrays is the layer's function of the vectors. The read-out
  is launched on a weight and a bias padded with zeros to 128 columns and keeps the first 47: in a column below 47
  the padded weight's column is the weight's and the padded bias's entry is the bias's.
-/
import proofs.«102266_j41506563948594_2_alg».proof.Proof.InitRegion
import proofs.«102266_j41506563948594_2_alg».proof.Proof.Layer1Region
import proofs.«102266_j41506563948594_2_alg».proof.Proof.Layer2Region
import proofs.«102266_j41506563948594_2_alg».proof.Proof.Layer3Region
import proofs.«102266_j41506563948594_2_alg».proof.Proof.ReadoutRegion
import proofs.«102266_j41506563948594_2_alg».proof.Proof.LibPadSet
import Idealize.ShloMosaic.Lib.ValueLayout

noncomputable section

namespace Cert.KernelIdeal.LayerValue

open Cert.KernelIdeal Cert.KernelIdeal.Gen Idealize.ShloMosaic Idealize.ShloMosaic.ValueIdx

/-- The input layer's launch on one-row parameter matrices, at row `n` and feature `f`. -/
theorem init_rows_at (x : FVec Ideal S100000x128 .f32) (W : FVec Ideal S128x128 .f32) (b g beta mu var : FVec Ideal S128 .f32)
    (n : Fin 100000) (f : Fin 128) :
    InitValue.G x W (shapeCast S1x128 b shapeCasts_S128_S1x128) (shapeCast S1x128 g shapeCasts_S128_S1x128)
        (shapeCast S1x128 beta shapeCasts_S128_S1x128) (shapeCast S1x128 mu shapeCasts_S128_S1x128) (shapeCast S1x128 var shapeCasts_S128_S1x128) (ix2 n f)
      = Resid.init x W b g beta mu var (ix2 n f) := by
  show max (Resid.bn ((∑ k : Fin 128, x (ix2 n k) * W (ix2 k f)) + shapeCast S1x128 b shapeCasts_S128_S1x128 (ix2 (0 : Fin 1) f))
        (shapeCast S1x128 mu shapeCasts_S128_S1x128 (ix2 (0 : Fin 1) f)) (shapeCast S1x128 g shapeCasts_S128_S1x128 (ix2 (0 : Fin 1) f))
        (shapeCast S1x128 var shapeCasts_S128_S1x128 (ix2 (0 : Fin 1) f)) (shapeCast S1x128 beta shapeCasts_S128_S1x128 (ix2 (0 : Fin 1) f))) 0
      = max (Resid.bn ((∑ k : Fin 128, x (ix2 n k) * W (ix2 k f)) + b (ix1 f)) (mu (ix1 f)) (g (ix1 f)) (var (ix1 f)) (beta (ix1 f))) 0
  simp only [shapeCast_a_1a_apply]

/-- The input layer's launch on one-row parameter matrices is the input layer. -/
theorem init_rows (x : FVec Ideal S100000x128 .f32) (W : FVec Ideal S128x128 .f32) (b g beta mu var : FVec Ideal S128 .f32) :
    InitValue.G x W (shapeCast S1x128 b shapeCasts_S128_S1x128) (shapeCast S1x128 g shapeCasts_S128_S1x128)
        (shapeCast S1x128 beta shapeCasts_S128_S1x128) (shapeCast S1x128 mu shapeCasts_S128_S1x128) (shapeCast S1x128 var shapeCasts_S128_S1x128)
      = Resid.init x W b g beta mu var := by
  funext i
  rw [eq_ix2 i]
  exact init_rows_at x W b g beta mu var (i 0) (i 1)

/-- A residual layer's launch on one-row parameter matrices, at row `n` and feature `f`. -/
theorem layer1_rows_at (h a : FVec Ideal S100000x128 .f32) (Wl : FVec Ideal S128x128 .f32) (bl : FVec Ideal S128 .f32) (Wr : FVec Ideal S128x128 .f32)
    (g beta mu var : FVec Ideal S128 .f32) (n : Fin 100000) (f : Fin 128) :
    Layer1Value.G h a Wl (shapeCast S1x128 bl shapeCasts_S128_S1x128) Wr (shapeCast S1x128 g shapeCasts_S128_S1x128)
        (shapeCast S1x128 beta shapeCasts_S128_S1x128) (shapeCast S1x128 mu shapeCasts_S128_S1x128) (shapeCast S1x128 var shapeCasts_S128_S1x128) (ix2 n f)
      = Resid.sage h a Wl bl Wr g beta mu var (ix2 n f) := by
  show h (ix2 n f) + max (Resid.bn (((∑ k : Fin 128, a (ix2 n k) * Wl (ix2 k f)) + shapeCast S1x128 bl shapeCasts_S128_S1x128 (ix2 (0 : Fin 1) f))
          + ∑ k : Fin 128, h (ix2 n k) * Wr (ix2 k f))
        (shapeCast S1x128 mu shapeCasts_S128_S1x128 (ix2 (0 : Fin 1) f)) (shapeCast S1x128 g shapeCasts_S128_S1x128 (ix2 (0 : Fin 1) f))
        (shapeCast S1x128 var shapeCasts_S128_S1x128 (ix2 (0 : Fin 1) f)) (shapeCast S1x128 beta shapeCasts_S128_S1x128 (ix2 (0 : Fin 1) f))) 0
      = h (ix2 n f) + max (Resid.bn (((∑ k : Fin 128, a (ix2 n k) * Wl (ix2 k f)) + bl (ix1 f)) + ∑ k : Fin 128, h (ix2 n k) * Wr (ix2 k f))
        (mu (ix1 f)) (g (ix1 f)) (var (ix1 f)) (beta (ix1 f))) 0
  simp only [shapeCast_a_1a_apply]

/-- A residual layer's launch on one-row parameter matrices is the residual layer. -/
theorem layer1_rows (h a : FVec Ideal S100000x128 .f32) (Wl : FVec Ideal S128x128 .f32) (bl : FVec Ideal S128 .f32) (Wr : FVec Ideal S128x128 .f32)
    (g beta mu var : FVec Ideal S128 .f32) :
    Layer1Value.G h a Wl (shapeCast S1x128 bl shapeCasts_S128_S1x128) Wr (shapeCast S1x128 g shapeCasts_S128_S1x128)
        (shapeCast S1x128 beta shapeCasts_S128_S1x128) (shapeCast S1x128 mu shapeCasts_S128_S1x128) (shapeCast S1x128 var shapeCasts_S128_S1x128)
      = Resid.sage h a Wl bl Wr g beta mu var := by
  funext i
  rw [eq_ix2 i]
  exact layer1_rows_at h a Wl bl Wr g beta mu var (i 0) (i 1)

theorem layer2_rows (h a : FVec Ideal S100000x128 .f32) (Wl : FVec Ideal S128x128 .f32) (bl : FVec Ideal S128 .f32) (Wr : FVec Ideal S128x128 .f32)
    (g beta mu var : FVec Ideal S128 .f32) :
    Layer2Value.G h a Wl (shapeCast S1x128 bl shapeCasts_S128_S1x128) Wr (shapeCast S1x128 g shapeCasts_S128_S1x128)
        (shapeCast S1x128 beta shapeCasts_S128_S1x128) (shapeCast S1x128 mu shapeCasts_S128_S1x128) (shapeCast S1x128 var shapeCasts_S128_S1x128)
      = Resid.sage h a Wl bl Wr g beta mu var :=
  layer1_rows h a Wl bl Wr g beta mu var

theorem layer3_rows (h a : FVec Ideal S100000x128 .f32) (Wl : FVec Ideal S128x128 .f32) (bl : FVec Ideal S128 .f32) (Wr : FVec Ideal S128x128 .f32)
    (g beta mu var : FVec Ideal S128 .f32) :
    Layer3Value.G h a Wl (shapeCast S1x128 bl shapeCasts_S128_S1x128) Wr (shapeCast S1x128 g shapeCasts_S128_S1x128)
        (shapeCast S1x128 beta shapeCasts_S128_S1x128) (shapeCast S1x128 mu shapeCasts_S128_S1x128) (shapeCast S1x128 var shapeCasts_S128_S1x128)
      = Resid.sage h a Wl bl Wr g beta mu var :=
  layer1_rows h a Wl bl Wr g beta mu var

/-- The first 47 columns of the read-out's launch on the padded weight and bias are the read-out. -/
theorem readout_cols (h : FVec Ideal S100000x128 .f32) (Wo : FVec Ideal S128x47 .f32) (bo : FVec Ideal S47 .f32)
    (z2 : FVec Ideal S128x128 .f32) (z1 : FVec Ideal S128 .f32) :
    extractStridedSlice S100000x47 ![0, 0]
        (ReadoutValue.G h
          (Host.scatter scatter_S128x128_S1_S128x47_01_n_1_0 (fun _ b => b) z2 (broadcastInDim S1 ![] bcast_S_S1 (constantI S_ 32 0#32)) Wo)
          (shapeCast S1x128 (Host.scatter scatter_S128_S1_S47_0_n_0_0 (fun _ b => b) z1 (broadcastInDim S1 ![] bcast_S_S1 (constantI S_ 32 0#32)) bo)
            shapeCasts_S128_S1x128))
        slices_S100000x128_S100000x47_0_0
      = Resid.final h Wo bo := by
  funext i
  obtain ⟨n, c, rfl⟩ : ∃ (n : Fin 100000) (c : Fin 47), i = ix2 n c := ⟨i 0, i 1, eq_ix2 i⟩
  have hc : c.val < 128 := by have := c.isLt; omega
  rw [slice2_axis1_apply (n0 := 100000) (n1 := 128) (m := 47) 0 _ slices_S100000x128_S100000x47_0_0 n c ⟨c.val, hc⟩ (by simp)]
  show (∑ k : Fin 128, h (ix2 n k) * Host.scatter scatter_S128x128_S1_S128x47_01_n_1_0 (fun _ b => b) z2
          (broadcastInDim S1 ![] bcast_S_S1 (constantI S_ 32 0#32)) Wo (ix2 k ⟨c.val, hc⟩))
        + shapeCast S1x128 (Host.scatter scatter_S128_S1_S47_0_n_0_0 (fun _ b => b) z1 (broadcastInDim S1 ![] bcast_S_S1 (constantI S_ 32 0#32)) bo)
            shapeCasts_S128_S1x128 (ix2 (0 : Fin 1) ⟨c.val, hc⟩)
      = (∑ k : Fin 128, h (ix2 n k) * Wo (ix2 k c)) + bo (ix1 c)
  rw [shapeCast_a_1a_apply,
    PadSet.scatter_set_prefix1 scatter_S128_S1_S47_0_n_0_0 rfl rfl z1 (broadcastInDim S1 ![] bcast_S_S1 (constantI S_ 32 0#32)) (fun _ => rfl) bo c hc]
  refine congrArg (· + bo (ix1 c)) (Finset.sum_congr rfl fun k _ => ?_)
  rw [PadSet.scatter_set_cols scatter_S128x128_S1_S128x47_01_n_1_0 rfl rfl z2 (broadcastInDim S1 ![] bcast_S_S1 (constantI S_ 32 0#32)) (fun _ => rfl) Wo k c hc]

end Cert.KernelIdeal.LayerValue

end
-- ==== Proof.RefNet.lean ====
/-
  The network as ONE term of the argument arrays, in the vocabulary both programs share.

  Gathering the source rows of the edges, adding them up at the destination nodes, and counting the edges per
  destination node are host operations that both programs apply unchanged; they are kept as the host's own
  functions of the feature matrix `h` and the edge list `e` (`edgeSum`, `degree`). The neighbourhood mean divides
  the edge sum of a node by its degree raised to at least one. A layer's parameters are rows, or square slices,
  of the stacked parameter arrays.
-/
import proofs.«102266_j41506563948594_2_alg».proof.Proof.Gen.ReferenceIdeal.Read
import proofs.«102266_j41506563948594_2_alg».proof.Proof.ResidSpec

noncomputable section

namespace Cert.ReferenceIdeal.Net

open Cert.ReferenceIdeal Cert.ReferenceIdeal.Gen Cert.ReferenceIdeal.Read Idealize.ShloMosaic

/-- Per destination node, the sum of the source rows of `h` over the edges `e` that end there. -/
def edgeSum (h : FVec Ideal S100000x128 .f32) (e : (⟨S2x600000, .i32⟩ : BufTy).Contents (Elt Ideal)) : FVec Ideal S100000x128 .f32 :=
  Host.scatterAdd scatter_S100000x128_S600000x1_S600000x128_1_0_0_1 (val_main_v35 (F := Ideal)) (val_main_v36 (F := Ideal) e)
    (Host.gather gather_S100000x128_S600000x1_S600000x128_1_0_n_n_0_1_1128 h (val_main_v33 (F := Ideal) e))

/-- Per node, the number of edges of `e` that end there, raised to at least one, laid out over the feature axis. -/
def degree (e : (⟨S2x600000, .i32⟩ : BufTy).Contents (Elt Ideal)) : FVec Ideal S100000x128 .f32 :=
  val_main_v45 (F := Ideal) e

/-- Per node, one over its raised degree; and the same as a column. -/
def recipVec (e : (⟨S2x600000, .i32⟩ : BufTy).Contents (Elt Ideal)) : FVec Ideal S100000 .f32 :=
  Host.divf (val_main_v42 (F := Ideal) : FVec Ideal S100000 .f32) (val_main_v43 (F := Ideal) e : FVec Ideal S100000 .f32)
def recip (e : (⟨S2x600000, .i32⟩ : BufTy).Contents (Elt Ideal)) : FVec Ideal S100000x1 .f32 :=
  broadcastInDim S100000x1 ![0] bcast_S100000_S100000x1_0 (recipVec e)

/-- The neighbourhood means of `h`: the edge sums over the degrees. -/
def mean (h : FVec Ideal S100000x128 .f32) (e : (⟨S2x600000, .i32⟩ : BufTy).Contents (Elt Ideal)) : FVec Ideal S100000x128 .f32 :=
  Host.divf (edgeSum h e) (degree e)

/-- One residual layer from the features `h`, with its parameters given. -/
def layer (h : FVec Ideal S100000x128 .f32) (e : (⟨S2x600000, .i32⟩ : BufTy).Contents (Elt Ideal))
    (Wl : FVec Ideal S128x128 .f32) (bl : FVec Ideal S128 .f32) (Wr : FVec Ideal S128x128 .f32)
    (g beta mu var : FVec Ideal S128 .f32) : FVec Ideal S100000x128 .f32 :=
  Resid.sage h (mean h e) Wl bl Wr g beta mu var

/-- The features after the input layer and `l` residual layers, and the network's result. -/
def h0 (x0 : FVec Ideal S100000x128 .f32) (x1 : FVec Ideal S128x128 .f32) (x2 x3 x4 x5 x6 : FVec Ideal S128 .f32) : FVec Ideal S100000x128 .f32 :=
  Resid.init x0 x1 x2 x3 x4 x5 x6

def h1 (x0 : FVec Ideal S100000x128 .f32) (x1 : FVec Ideal S128x128 .f32) (x2 x3 x4 x5 x6 : FVec Ideal S128 .f32)
    (x7 : FVec Ideal S3x128x128 .f32) (x8 : FVec Ideal S3x128 .f32) (x9 : FVec Ideal S3x128x128 .f32) (x10 x11 x12 x13 : FVec Ideal S3x128 .f32)
    (e : (⟨S2x600000, .i32⟩ : BufTy).Contents (Elt Ideal)) : FVec Ideal S100000x128 .f32 :=
  layer (h0 x0 x1 x2 x3 x4 x5 x6) e (val_main_v23 (F := Ideal) x7) (val_main_v25 (F := Ideal) x8) (val_main_v27 (F := Ideal) x9)
    (val_main_v54 (F := Ideal) x10) (val_main_v56 (F := Ideal) x11) (val_main_v58 (F := Ideal) x12) (val_main_v60 (F := Ideal) x13)

def h2 (x0 : FVec Ideal S100000x128 .f32) (x1 : FVec Ideal S128x128 .f32) (x2 x3 x4 x5 x6 : FVec Ideal S128 .f32)
    (x7 : FVec Ideal S3x128x128 .f32) (x8 : FVec Ideal S3x128 .f32) (x9 : FVec Ideal S3x128x128 .f32) (x10 x11 x12 x13 : FVec Ideal S3x128 .f32)
    (e : (⟨S2x600000, .i32⟩ : BufTy).Contents (Elt Ideal)) : FVec Ideal S100000x128 .f32 :=
  layer (h1 x0 x1 x2 x3 x4 x5 x6 x7 x8 x9 x10 x11 x12 x13 e) e (val_main_v77 (F := Ideal) x7) (val_main_v79 (F := Ideal) x8) (val_main_v81 (F := Ideal) x9)
    (val_main_v108 (F := Ideal) x10) (val_main_v110 (F := Ideal) x11) (val_main_v112 (F := Ideal) x12) (val_main_v114 (F := Ideal) x13)

def h3 (x0 : FVec Ideal S100000x128 .f32) (x1 : FVec Ideal S128x128 .f32) (x2 x3 x4 x5 x6 : FVec Ideal S128 .f32)
    (x7 : FVec Ideal S3x128x128 .f32) (x8 : FVec Ideal S3x128 .f32) (x9 : FVec Ideal S3x128x128 .f32) (x10 x11 x12 x13 : FVec Ideal S3x128 .f32)
    (e : (⟨S2x600000, .i32⟩ : BufTy).Contents (Elt Ideal)) : FVec Ideal S100000x128 .f32 :=
  layer (h2 x0 x1 x2 x3 x4 x5 x6 x7 x8 x9 x10 x11 x12 x13 e) e (val_main_v131 (F := Ideal) x7) (val_main_v133 (F := Ideal) x8) (val_main_v135 (F := Ideal) x9)
    (val_main_v162 (F := Ideal) x10) (val_main_v164 (F := Ideal) x11) (val_main_v166 (F := Ideal) x12) (val_main_v168 (F := Ideal) x13)

def out (x0 : FVec Ideal S100000x128 .f32) (x1 : FVec Ideal S128x128 .f32) (x2 x3 x4 x5 x6 : FVec Ideal S128 .f32)
    (x7 : FVec Ideal S3x128x128 .f32) (x8 : FVec Ideal S3x128 .f32) (x9 : FVec Ideal S3x128x128 .f32) (x10 x11 x12 x13 : FVec Ideal S3x128 .f32)
    (x14 : FVec Ideal S128x47 .f32) (x15 : FVec Ideal S47 .f32)
    (e : (⟨S2x600000, .i32⟩ : BufTy).Contents (Elt Ideal)) : FVec Ideal S100000x47 .f32 :=
  Resid.final (h3 x0 x1 x2 x3 x4 x5 x6 x7 x8 x9 x10 x11 x12 x13 e) x14 x15

end Cert.ReferenceIdeal.Net

end
-- ==== Proof.HostStretches.lean ====
/-
  What the host operations between the launches compute, for any contents `W` they start from.

  Before the first launch the host takes the edge list apart (source and destination node per edge), counts the
  edges ending at each node, takes the reciprocal of the count raised to at least one, and lays each of the five
  parameter vectors out as a one-row matrix. Before each residual layer it gathers the source rows of the current
  features, adds them up at the destination nodes, scales by the reciprocal degrees, and slices the layer's
  parameters out of the stacked arrays. Before the read-out it pads the weight and the bias with zeros to 128
  columns; after it, it keeps the first 47 columns. Each fact is stated in the reference program's vocabulary
  (`val_main_vN`: the same operation there), so that the two programs' terms meet by name.
-/
import proofs.«102266_j41506563948594_2_alg».proof.Proof.Gen.KernelIdeal.Launch
import proofs.«102266_j41506563948594_2_alg».proof.Proof.RefNet
import Idealize.ShloMosaic.Lib.StableHlo.Run

set_option maxRecDepth 16384

noncomputable section

namespace Cert.KernelIdeal.HostValue

open Cert.KernelIdeal Cert.KernelIdeal.Gen Cert.ReferenceIdeal.Read
open Idealize.ShloMosaic Idealize.ShloMosaic.TcCoe Idealize.ShloMosaic.StableHlo Idealize.SL.Sem

variable (W : Valuation τ sig (Elt Ideal))

/-! ## Before the first launch -/

/-- The edges' source nodes and destination nodes. -/
theorem src0 : StableHlo.after hostOps0 W (Proc.devRef .tc main_v1) = val_main_v1 (F := Ideal) (W (Proc.devRef .tc main_arg16)) := by
  after_results; rfl
theorem dst0 : StableHlo.after hostOps0 W (Proc.devRef .tc main_v3) = val_main_v3 (F := Ideal) (W (Proc.devRef .tc main_arg16)) := by
  after_results; rfl

/-- The reciprocal degrees, as a column: one over the edge count raised to at least one. -/
theorem inv0 : StableHlo.after hostOps0 W (Proc.devRef .tc main_v12) = Cert.ReferenceIdeal.Net.recip (W (Proc.devRef .tc main_arg16)) := by
  after_results; rfl

/-- Each parameter vector laid out as a one-row matrix. -/
theorem row13 : StableHlo.after hostOps0 W (Proc.devRef .tc main_v13) = shapeCast S1x128 (W (Proc.devRef .tc main_arg2)) shapeCasts_S128_S1x128 := by
  after_results; rfl
theorem row14 : StableHlo.after hostOps0 W (Proc.devRef .tc main_v14) = shapeCast S1x128 (W (Proc.devRef .tc main_arg3)) shapeCasts_S128_S1x128 := by
  after_results; rfl
theorem row15 : StableHlo.after hostOps0 W (Proc.devRef .tc main_v15) = shapeCast S1x128 (W (Proc.devRef .tc main_arg4)) shapeCasts_S128_S1x128 := by
  after_results; rfl
theorem row16 : StableHlo.after hostOps0 W (Proc.devRef .tc main_v16) = shapeCast S1x128 (W (Proc.devRef .tc main_arg5)) shapeCasts_S128_S1x128 := by
  after_results; rfl
theorem row17 : StableHlo.after hostOps0 W (Proc.devRef .tc main_v17) = shapeCast S1x128 (W (Proc.devRef .tc main_arg6)) shapeCasts_S128_S1x128 := by
  after_results; rfl

/-! ## The host operations before residual layer 1 -/

set_option maxHeartbeats 4000000 in
/-- The neighbourhood means the layer is launched on: the edge sums of the features, times the reciprocal degrees. -/
theorem mean1 (h : FVec Ideal S100000x128 .f32) (e : (⟨S2x600000, .i32⟩ : BufTy).Contents (Elt Ideal))
    (inv : FVec Ideal S100000x1 .f32)
    (hh : W (Proc.devRef .tc main_v18) = h) (hs : W (Proc.devRef .tc main_v1) = val_main_v1 (F := Ideal) e) (hd : W (Proc.devRef .tc main_v3) = val_main_v3 (F := Ideal) e)
    (hi : W (Proc.devRef .tc main_v12) = inv) :
    StableHlo.after hostOps1 W (Proc.devRef .tc main_v30)
      = mulf (Cert.ReferenceIdeal.Net.edgeSum h e) (broadcastInDim S100000x128 ![0, 1] bcast_S100000x1_S100000x128_0_1 inv) := by
  after_results_simp
  rw [hh, hs, hd, hi]
  rfl

/-- The layer's two weights are the stacked weights' slices. -/
theorem wl1 : StableHlo.after hostOps1 W (Proc.devRef .tc main_v32) = val_main_v23 (F := Ideal) (W (Proc.devRef .tc main_arg7)) := by
  after_results; rfl
theorem wr1 : StableHlo.after hostOps1 W (Proc.devRef .tc main_v36) = val_main_v27 (F := Ideal) (W (Proc.devRef .tc main_arg9)) := by
  after_results; rfl

/-- Each parameter row the layer is launched on is the stacked parameter's row, laid out as a one-row matrix. -/
theorem bl1 : StableHlo.after hostOps1 W (Proc.devRef .tc main_v45) = shapeCast S1x128 (val_main_v25 (F := Ideal) (W (Proc.devRef .tc main_arg8))) shapeCasts_S128_S1x128 := by
  after_results; rfl
theorem g1 : StableHlo.after hostOps1 W (Proc.devRef .tc main_v46) = shapeCast S1x128 (val_main_v54 (F := Ideal) (W (Proc.devRef .tc main_arg10))) shapeCasts_S128_S1x128 := by
  after_results; rfl
theorem beta1 : StableHlo.after hostOps1 W (Proc.devRef .tc main_v47) = shapeCast S1x128 (val_main_v56 (F := Ideal) (W (Proc.devRef .tc main_arg11))) shapeCasts_S128_S1x128 := by
  after_results; rfl
theorem mu1 : StableHlo.after hostOps1 W (Proc.devRef .tc main_v48) = shapeCast S1x128 (val_main_v58 (F := Ideal) (W (Proc.devRef .tc main_arg12))) shapeCasts_S128_S1x128 := by
  after_results; rfl
theorem var1 : StableHlo.after hostOps1 W (Proc.devRef .tc main_v49) = shapeCast S1x128 (val_main_v60 (F := Ideal) (W (Proc.devRef .tc main_arg13))) shapeCasts_S128_S1x128 := by
  after_results; rfl

/-! ## The host operations before residual layer 2 -/

set_option maxHeartbeats 4000000 in
/-- The neighbourhood means the layer is launched on: the edge sums of the features, times the reciprocal degrees. -/
theorem mean2 (h : FVec Ideal S100000x128 .f32) (e : (⟨S2x600000, .i32⟩ : BufTy).Contents (Elt Ideal))
    (inv : FVec Ideal S100000x1 .f32)
    (hh : W (Proc.devRef .tc main_v50) = h) (hs : W (Proc.devRef .tc main_v1) = val_main_v1 (F := Ideal) e) (hd : W (Proc.devRef .tc main_v3) = val_main_v3 (F := Ideal) e)
    (hi : W (Proc.devRef .tc main_v12) = inv) :
    StableHlo.after hostOps2 W (Proc.devRef .tc main_v62)
      = mulf (Cert.ReferenceIdeal.Net.edgeSum h e) (broadcastInDim S100000x128 ![0, 1] bcast_S100000x1_S100000x128_0_1 inv) := by
  after_results_simp
  rw [hh, hs, hd, hi]
  rfl

/-- The layer's two weights are the stacked weights' slices. -/
theorem wl2 : StableHlo.after hostOps2 W (Proc.devRef .tc main_v64) = val_main_v77 (F := Ideal) (W (Proc.devRef .tc main_arg7)) := by
  after_results; rfl
theorem wr2 : StableHlo.after hostOps2 W (Proc.devRef .tc main_v68) = val_main_v81 (F := Ideal) (W (Proc.devRef .tc main_arg9)) := by
  after_results; rfl

/-- Each parameter row the layer is launched on is the stacked parameter's row, laid out as a one-row matrix. -/
theorem bl2 : StableHlo.after hostOps2 W (Proc.devRef .tc main_v77) = shapeCast S1x128 (val_main_v79 (F := Ideal) (W (Proc.devRef .tc main_arg8))) shapeCasts_S128_S1x128 := by
  after_results; rfl
theorem g2 : StableHlo.after hostOps2 W (Proc.devRef .tc main_v78) = shapeCast S1x128 (val_main_v108 (F := Ideal) (W (Proc.devRef .tc main_arg10))) shapeCasts_S128_S1x128 := by
  after_results; rfl
theorem beta2 : StableHlo.after hostOps2 W (Proc.devRef .tc main_v79) = shapeCast S1x128 (val_main_v110 (F := Ideal) (W (Proc.devRef .tc main_arg11))) shapeCasts_S128_S1x128 := by
  after_results; rfl
theorem mu2 : StableHlo.after hostOps2 W (Proc.devRef .tc main_v80) = shapeCast S1x128 (val_main_v112 (F := Ideal) (W (Proc.devRef .tc main_arg12))) shapeCasts_S128_S1x128 := by
  after_results; rfl
theorem var2 : StableHlo.after hostOps2 W (Proc.devRef .tc main_v81) = shapeCast S1x128 (val_main_v114 (F := Ideal) (W (Proc.devRef .tc main_arg13))) shapeCasts_S128_S1x128 := by
  after_results; rfl

/-! ## The host operations before residual layer 3 -/

set_option maxHeartbeats 4000000 in
/-- The neighbourhood means the layer is launched on: the edge sums of the features, times the reciprocal degrees. -/
theorem mean3 (h : FVec Ideal S100000x128 .f32) (e : (⟨S2x600000, .i32⟩ : BufTy).Contents (Elt Ideal))
    (inv : FVec Ideal S100000x1 .f32)
    (hh : W (Proc.devRef .tc main_v82) = h) (hs : W (Proc.devRef .tc main_v1) = val_main_v1 (F := Ideal) e) (hd : W (Proc.devRef .tc main_v3) = val_main_v3 (F := Ideal) e)
    (hi : W (Proc.devRef .tc main_v12) = inv) :
    StableHlo.after hostOps3 W (Proc.devRef .tc main_v94)
      = mulf (Cert.ReferenceIdeal.Net.edgeSum h e) (broadcastInDim S100000x128 ![0, 1] bcast_S100000x1_S100000x128_0_1 inv) := by
  after_results_simp
  rw [hh, hs, hd, hi]
  rfl

/-- The layer's two weights are the stacked weights' slices. -/
theorem wl3 : StableHlo.after hostOps3 W (Proc.devRef .tc main_v96) = val_main_v131 (F := Ideal) (W (Proc.devRef .tc main_arg7)) := by
  after_results; rfl
theorem wr3 : StableHlo.after hostOps3 W (Proc.devRef .tc main_v100) = val_main_v135 (F := Ideal) (W (Proc.devRef .tc main_arg9)) := by
  after_results; rfl

/-- Each parameter row the layer is launched on is the stacked parameter's row, laid out as a one-row matrix. -/
theorem bl3 : StableHlo.after hostOps3 W (Proc.devRef .tc main_v109) = shapeCast S1x128 (val_main_v133 (F := Ideal) (W (Proc.devRef .tc main_arg8))) shapeCasts_S128_S1x128 := by
  after_results; rfl
theorem g3 : StableHlo.after hostOps3 W (Proc.devRef .tc main_v110) = shapeCast S1x128 (val_main_v162 (F := Ideal) (W (Proc.devRef .tc main_arg10))) shapeCasts_S128_S1x128 := by
  after_results; rfl
theorem beta3 : StableHlo.after hostOps3 W (Proc.devRef .tc main_v111) = shapeCast S1x128 (val_main_v164 (F := Ideal) (W (Proc.devRef .tc main_arg11))) shapeCasts_S128_S1x128 := by
  after_results; rfl
theorem mu3 : StableHlo.after hostOps3 W (Proc.devRef .tc main_v112) = shapeCast S1x128 (val_main_v166 (F := Ideal) (W (Proc.devRef .tc main_arg12))) shapeCasts_S128_S1x128 := by
  after_results; rfl
theorem var3 : StableHlo.after hostOps3 W (Proc.devRef .tc main_v113) = shapeCast S1x128 (val_main_v168 (F := Ideal) (W (Proc.devRef .tc main_arg13))) shapeCasts_S128_S1x128 := by
  after_results; rfl

/-! ## Around the read-out -/

/-- The padded weight and the padded bias row: the read-out's weight and bias written into zeros. -/
theorem padW : StableHlo.after hostOps4 W (Proc.devRef .tc main_v117)
    = Host.scatter scatter_S128x128_S1_S128x47_01_n_1_0 (fun _ b => b) (broadcastInDim S128x128 ![] bcast_S_S128x128 (constant (F := Ideal) S_ .f32 0x00000000#32))
        (broadcastInDim S1 ![] bcast_S_S1 (constantI S_ 32 0#32)) (W (Proc.devRef .tc main_arg14)) := by
  after_results
theorem padB : StableHlo.after hostOps4 W (Proc.devRef .tc main_v121)
    = shapeCast S1x128 (Host.scatter scatter_S128_S1_S47_0_n_0_0 (fun _ b => b) (broadcastInDim S128 ![] bcast_S_S128 (constant (F := Ideal) S_ .f32 0x00000000#32))
        (broadcastInDim S1 ![] bcast_S_S1 (constantI S_ 32 0#32)) (W (Proc.devRef .tc main_arg15))) shapeCasts_S128_S1x128 := by
  after_results; rfl

/-- The result: the first 47 columns of the read-out's 128. -/
theorem slice5 : StableHlo.after hostOps5 W (Proc.devRef .tc main_v123)
    = extractStridedSlice S100000x47 ![0, 0] (W (Proc.devRef .tc main_v122)) slices_S100000x128_S100000x47_0_0 := by
  after_results

/-! ## What each stretch leaves alone -/

/-- The references the operations of stretch 0 write, and: a reference not among them keeps its contents. -/
abbrev written0 : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_v17]
theorem writes0 : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep0 (r : Ref sig .tc) (h : r ∉ written0) : StableHlo.after hostOps0 W (Proc.devRef .tc r) = W (Proc.devRef .tc r) :=
  StableHlo.after_of_writes_sub hostOps0 _ writes0 h

/-- The references the operations of stretch 1 write, and: a reference not among them keeps its contents. -/
abbrev written1 : List (Ref sig .tc) := [main_c, main_v19, main_v20, main_c_3, main_v21, main_v22, main_v23, main_v24, main_v25, main_cst_4, main_v26, main_v27, main_v28, main_v29, main_v30, main_v31, main_v32, main_v33, main_v34, main_v35, main_v36, main_v37, main_v38, main_v39, main_v40, main_v41, main_v42, main_v43, main_v44, main_v45, main_v46, main_v47, main_v48, main_v49]
theorem writes1 : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep1 (r : Ref sig .tc) (h : r ∉ written1) : StableHlo.after hostOps1 W (Proc.devRef .tc r) = W (Proc.devRef .tc r) :=
  StableHlo.after_of_writes_sub hostOps1 _ writes1 h

/-- The references the operations of stretch 2 write, and: a reference not among them keeps its contents. -/
abbrev written2 : List (Ref sig .tc) := [main_c_5, main_v51, main_v52, main_c_6, main_v53, main_v54, main_v55, main_v56, main_v57, main_cst_7, main_v58, main_v59, main_v60, main_v61, main_v62, main_v63, main_v64, main_v65, main_v66, main_v67, main_v68, main_v69, main_v70, main_v71, main_v72, main_v73, main_v74, main_v75, main_v76, main_v77, main_v78, main_v79, main_v80, main_v81]
theorem writes2 : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep2 (r : Ref sig .tc) (h : r ∉ written2) : StableHlo.after hostOps2 W (Proc.devRef .tc r) = W (Proc.devRef .tc r) :=
  StableHlo.after_of_writes_sub hostOps2 _ writes2 h

/-- The references the operations of stretch 3 write, and: a reference not among them keeps its contents. -/
abbrev written3 : List (Ref sig .tc) := [main_c_8, main_v83, main_v84, main_c_9, main_v85, main_v86, main_v87, main_v88, main_v89, main_cst_10, main_v90, main_v91, main_v92, main_v93, main_v94, main_v95, main_v96, main_v97, main_v98, main_v99, main_v100, main_v101, main_v102, main_v103, main_v104, main_v105, main_v106, main_v107, main_v108, main_v109, main_v110, main_v111, main_v112, main_v113]
theorem writes3 : (hostOps3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep3 (r : Ref sig .tc) (h : r ∉ written3) : StableHlo.after hostOps3 W (Proc.devRef .tc r) = W (Proc.devRef .tc r) :=
  StableHlo.after_of_writes_sub hostOps3 _ writes3 h

/-- The references the operations of stretch 4 write, and: a reference not among them keeps its contents. -/
abbrev written4 : List (Ref sig .tc) := [main_cst_11, main_v115, main_c_12, main_v116, main_v117, main_cst_13, main_v118, main_c_14, main_v119, main_v120, main_v121]
theorem writes4 : (hostOps4 : List (HloOp τ sig (Elt Ideal))).Forall fun op => op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep4 (r : Ref sig .tc) (h : r ∉ written4) : StableHlo.after hostOps4 W (Proc.devRef .tc r) = W (Proc.devRef .tc r) :=
  StableHlo.after_of_writes_sub hostOps4 _ writes4 h

/-- The references the operations of stretch 5 write, and: a reference not among them keeps its contents. -/
abbrev written5 : List (Ref sig .tc) := [main_v123]
theorem writes5 : (hostOps5 : List (HloOp τ sig (Elt Ideal))).Forall fun op => op.writes ⊆ (written5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep5 (r : Ref sig .tc) (h : r ∉ written5) : StableHlo.after hostOps5 W (Proc.devRef .tc r) = W (Proc.devRef .tc r) :=
  StableHlo.after_of_writes_sub hostOps5 _ writes5 h

end Cert.KernelIdeal.HostValue

end
-- ==== Proof.MeanLaw.lean ====
/-
  The neighbourhood mean, two ways.

  One program multiplies a node's edge sum by the reciprocal of its degree raised to at least one, computed once;
  the other divides the edge sum by the degree raised to at least one. The raised degree `max d 1` is at least one,
  so it is not zero, and then both are the edge sum times the inverse of the raised degree, whatever the edge sum
  is (an infinity included): no finiteness is needed.
-/
import proofs.«102266_j41506563948594_2_alg».proof.Proof.RefNet
import Idealize.ShloMosaic.Lib.ValueIdx

noncomputable section

namespace Cert.ReferenceIdeal.Net

open Cert.ReferenceIdeal Cert.ReferenceIdeal.Gen Cert.ReferenceIdeal.Read Idealize.ShloMosaic Idealize.ShloMosaic.ValueIdx

/-- The word `0x3F800000` is the real number one. -/
theorem one_word : Ideal.ofBits .f32 0x3F800000#32 = 1 := by
  show Ideal.ieee 8 23 (0x3F800000#32 : BitVec 32) = 1
  unfold Ideal.ieee
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  simp only [h1, h2, h3]
  norm_num

/-- The raised degree at a node is `max d 1`, not zero. -/
theorem raised_ne_zero (e : (⟨S2x600000, .i32⟩ : BufTy).Contents (Elt Ideal)) (j : S100000.Idx) :
    val_main_v43 (F := Ideal) e j ≠ 0 := by
  rw [val_main_v43_apply, val_main_v42_apply, val_main_cst_4_apply]
  show max _ (Ideal.ofBits .f32 0x3F800000#32) ≠ 0
  rw [one_word]
  exact Resid.max_one_ne_zero _

/-- The numerator of the reciprocal is one. -/
theorem one_at (j : S100000.Idx) : val_main_v42 (F := Ideal) j = 1 := by
  rw [val_main_v42_apply, val_main_cst_4_apply]
  exact one_word

/-- A quotient of vectors at an index is the quotient of the entries. -/
theorem divf_at {s : Shape} (a b : FVec Ideal s .f32) (j : s.Idx) : Host.divf a b j = Ideal.div (a j) (b j) := rfl

/-- The law on arbitrary vectors: edge sums `S`, raised degrees `C` with no zero entry, and the vector of ones `U`. Laid out
    over the feature axis, `S · (U / C)` is `S / C`. -/
theorem mul_recip_eq_div_vec (S : FVec Ideal S100000x128 .f32) (C U : FVec Ideal S100000 .f32)
    (hC : ∀ j, C j ≠ 0) (hU : ∀ j, U j = 1) :
    mulf S (broadcastInDim S100000x128 ![0, 1] bcast_S100000x1_S100000x128_0_1
        (broadcastInDim S100000x1 ![0] bcast_S100000_S100000x1_0 (Host.divf U C)))
      = Host.divf S (broadcastInDim S100000x128 ![0, 1] bcast_S100000x1_S100000x128_0_1
        (broadcastInDim S100000x1 ![0] bcast_S100000_S100000x1_0 C)) := by
  funext i
  rw [mulf_apply, divf_at,
    broadcastInDim_apply _ bcast_S100000x1_S100000x128_0_1 _ i (idx_main_v45 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ bcast_S100000_S100000x1_0 (Host.divf U C) (idx_main_v45 i) (idx_main_v44 (idx_main_v45 i)) (fun a => match a with
      | ⟨0, _⟩ => by show (i 0).val = if (100000 : Nat) = 1 then 0 else (i 0).val; rw [if_neg (by decide)]),
    broadcastInDim_apply _ bcast_S100000x1_S100000x128_0_1 _ i (idx_main_v45 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ bcast_S100000_S100000x1_0 C (idx_main_v45 i) (idx_main_v44 (idx_main_v45 i)) (fun a => match a with
      | ⟨0, _⟩ => by show (i 0).val = if (100000 : Nat) = 1 then 0 else (i 0).val; rw [if_neg (by decide)]),
    divf_at, hU]
  exact Resid.mul_recip_eq_div _ _ (hC _)

/-- THE MEAN: the edge sums times the reciprocal raised degrees are the edge sums over the raised degrees. -/
theorem mul_recip_eq_mean (h : FVec Ideal S100000x128 .f32) (e : (⟨S2x600000, .i32⟩ : BufTy).Contents (Elt Ideal)) :
    mulf (edgeSum h e) (broadcastInDim S100000x128 ![0, 1] bcast_S100000x1_S100000x128_0_1 (recip e))
      = mean h e :=
  mul_recip_eq_div_vec (edgeSum h e) (val_main_v43 (F := Ideal) e) (val_main_v42 (F := Ideal)) (raised_ne_zero e) one_at

end Cert.ReferenceIdeal.Net

end
-- ==== Proof.KernelNet.lean ====
/-
  The idealized kernel's result as the network of the arguments.

  The fold through the program alternates host stretches and launches. Walking it once: the source and destination
  nodes, the reciprocal degrees and every argument array pass every later stretch and launch untouched; the first
  launch leaves the input layer's features; each residual layer's stretch forms the neighbourhood means of the
  current features and slices the layer's parameters, and its launch leaves the next features; the last stretch
  pads the read-out's weight and bias, the last launch multiplies, and the result keeps the first 47 columns.
-/
import proofs.«102266_j41506563948594_2_alg».proof.Proof.Gen.KernelIdeal.Frame
import proofs.«102266_j41506563948594_2_alg».proof.Proof.RegionLayers
import proofs.«102266_j41506563948594_2_alg».proof.Proof.HostStretches
import proofs.«102266_j41506563948594_2_alg».proof.Proof.MeanLaw

set_option maxRecDepth 16384

noncomputable section

namespace Cert.KernelIdeal.NetValue

open Cert.KernelIdeal Cert.KernelIdeal.Gen Cert.KernelIdeal.HostValue Cert.KernelIdeal.LayerValue Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## What nothing writes after the first stretch -/

/-- A reference that no launch has among its arrays and no later stretch writes. -/
structure Stable (r : Ref sig .tc) : Prop where
  a0 : ∀ w, Pipeline.arrRef spec0 w ≠ r
  a1 : ∀ w, Pipeline.arrRef spec1 w ≠ r
  a2 : ∀ w, Pipeline.arrRef spec2 w ≠ r
  a3 : ∀ w, Pipeline.arrRef spec3 w ≠ r
  k1 : r ∉ written1
  k2 : r ∉ written2
  k3 : r ∉ written3
  k4 : r ∉ written4

variable {r : Ref sig .tc} (hs : Stable r)
include hs

theorem at2 : W2 m ρ c (Proc.devRef .tc r) = W1 m ρ c (Proc.devRef .tc r) := W2_of_ne m ρ c r hs.a0
theorem at4 : W4 m ρ c (Proc.devRef .tc r) = W1 m ρ c (Proc.devRef .tc r) :=
  (W4_of_ne m ρ c r hs.a1).trans ((keep1 (W2 m ρ c) r hs.k1).trans (at2 m ρ c hs))
theorem at6 : W6 m ρ c (Proc.devRef .tc r) = W1 m ρ c (Proc.devRef .tc r) :=
  (W6_of_ne m ρ c r hs.a2).trans ((keep2 (W4 m ρ c) r hs.k2).trans (at4 m ρ c hs))
theorem at8 : W8 m ρ c (Proc.devRef .tc r) = W1 m ρ c (Proc.devRef .tc r) :=
  (W8_of_ne m ρ c r hs.a3).trans ((keep3 (W6 m ρ c) r hs.k3).trans (at6 m ρ c hs))

omit hs

theorem stable_v1 : Stable main_v1 := ⟨by decide, by decide, by decide, by decide, by decide, by decide, by decide, by decide⟩
theorem stable_v3 : Stable main_v3 := ⟨by decide, by decide, by decide, by decide, by decide, by decide, by decide, by decide⟩
theorem stable_v12 : Stable main_v12 := ⟨by decide, by decide, by decide, by decide, by decide, by decide, by decide, by decide⟩
theorem stable_arg7 : Stable main_arg7 := ⟨by decide, by decide, by decide, by decide, by decide, by decide, by decide, by decide⟩
theorem stable_arg8 : Stable main_arg8 := ⟨by decide, by decide, by decide, by decide, by decide, by decide, by decide, by decide⟩
theorem stable_arg9 : Stable main_arg9 := ⟨by decide, by decide, by decide, by decide, by decide, by decide, by decide, by decide⟩
theorem stable_arg10 : Stable main_arg10 := ⟨by decide, by decide, by decide, by decide, by decide, by decide, by decide, by decide⟩
theorem stable_arg11 : Stable main_arg11 := ⟨by decide, by decide, by decide, by decide, by decide, by decide, by decide, by decide⟩
theorem stable_arg12 : Stable main_arg12 := ⟨by decide, by decide, by decide, by decide, by decide, by decide, by decide, by decide⟩
theorem stable_arg13 : Stable main_arg13 := ⟨by decide, by decide, by decide, by decide, by decide, by decide, by decide, by decide⟩
theorem stable_arg14 : Stable main_arg14 := ⟨by decide, by decide, by decide, by decide, by decide, by decide, by decide, by decide⟩
theorem stable_arg15 : Stable main_arg15 := ⟨by decide, by decide, by decide, by decide, by decide, by decide, by decide, by decide⟩

/-- After the first stretch an argument array holds its launch contents. -/
theorem w1_arg (r : Ref sig .tc) (h : r ∉ written0) : W1 m ρ c (Proc.devRef .tc r) = m ((c : Thread nD τ).loc r) :=
  keep0 (W0 m ρ c) r h

/-- The source nodes, the destination nodes and the reciprocal degrees, after the first stretch. -/
theorem w1_src : W1 m ρ c (Proc.devRef .tc main_v1) = val_main_v1 (F := Ideal) (m ((c : Thread nD τ).loc main_arg16)) := src0 (W0 m ρ c)
theorem w1_dst : W1 m ρ c (Proc.devRef .tc main_v3) = val_main_v3 (F := Ideal) (m ((c : Thread nD τ).loc main_arg16)) := dst0 (W0 m ρ c)
theorem w1_inv : W1 m ρ c (Proc.devRef .tc main_v12) = (Cert.ReferenceIdeal.Net.recip (m ((c : Thread nD τ).loc main_arg16))) := inv0 (W0 m ρ c)

/-! ## The features, launch by launch -/

/-- After the first launch: the input layer's features. -/
theorem feat0 : W2 m ρ c (Proc.devRef .tc main_v18) = Cert.ReferenceIdeal.Net.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ((InitValue.final (V1 m ρ) c).trans ?_)
  rw [show V1 m ρ c main_arg0 = (m ((c : Thread nD τ).loc main_arg0)) from w1_arg m ρ c main_arg0 (by decide),
    show V1 m ρ c main_arg1 = (m ((c : Thread nD τ).loc main_arg1)) from w1_arg m ρ c main_arg1 (by decide),
    show V1 m ρ c main_v13 = shapeCast S1x128 (m ((c : Thread nD τ).loc main_arg2)) shapeCasts_S128_S1x128 from row13 (W0 m ρ c),
    show V1 m ρ c main_v14 = shapeCast S1x128 (m ((c : Thread nD τ).loc main_arg3)) shapeCasts_S128_S1x128 from row14 (W0 m ρ c),
    show V1 m ρ c main_v15 = shapeCast S1x128 (m ((c : Thread nD τ).loc main_arg4)) shapeCasts_S128_S1x128 from row15 (W0 m ρ c),
    show V1 m ρ c main_v16 = shapeCast S1x128 (m ((c : Thread nD τ).loc main_arg5)) shapeCasts_S128_S1x128 from row16 (W0 m ρ c),
    show V1 m ρ c main_v17 = shapeCast S1x128 (m ((c : Thread nD τ).loc main_arg6)) shapeCasts_S128_S1x128 from row17 (W0 m ρ c)]
  exact init_rows _ _ _ _ _ _ _

/-- After residual layer 1's launch: the features after 1 residual layer. -/
theorem feat1 : W4 m ρ c (Proc.devRef .tc main_v50) = Cert.ReferenceIdeal.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  refine (W4_arr m ρ c 9).trans ((Layer1Value.final (V3 m ρ) c).trans ?_)
  have eh : V3 m ρ c main_v18 = Cert.ReferenceIdeal.Net.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
    (keep1 (W2 m ρ c) main_v18 (by decide)).trans (feat0 m ρ c)
  have em : V3 m ρ c main_v30 = Cert.ReferenceIdeal.Net.mean (Cert.ReferenceIdeal.Net.h0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg16)) :=
    (mean1 (W2 m ρ c) _ (m ((c : Thread nD τ).loc main_arg16)) (Cert.ReferenceIdeal.Net.recip (m ((c : Thread nD τ).loc main_arg16))) (feat0 m ρ c)
      ((at2 m ρ c stable_v1).trans (w1_src m ρ c)) ((at2 m ρ c stable_v3).trans (w1_dst m ρ c))
      ((at2 m ρ c stable_v12).trans (w1_inv m ρ c))).trans (Cert.ReferenceIdeal.Net.mul_recip_eq_mean _ _)
  have a7 : W2 m ρ c (Proc.devRef .tc main_arg7) = (m ((c : Thread nD τ).loc main_arg7)) := (at2 m ρ c stable_arg7).trans (w1_arg m ρ c main_arg7 (by decide))
  have a8 : W2 m ρ c (Proc.devRef .tc main_arg8) = (m ((c : Thread nD τ).loc main_arg8)) := (at2 m ρ c stable_arg8).trans (w1_arg m ρ c main_arg8 (by decide))
  have a9 : W2 m ρ c (Proc.devRef .tc main_arg9) = (m ((c : Thread nD τ).loc main_arg9)) := (at2 m ρ c stable_arg9).trans (w1_arg m ρ c main_arg9 (by decide))
  have a10 : W2 m ρ c (Proc.devRef .tc main_arg10) = (m ((c : Thread nD τ).loc main_arg10)) := (at2 m ρ c stable_arg10).trans (w1_arg m ρ c main_arg10 (by decide))
  have a11 : W2 m ρ c (Proc.devRef .tc main_arg11) = (m ((c : Thread nD τ).loc main_arg11)) := (at2 m ρ c stable_arg11).trans (w1_arg m ρ c main_arg11 (by decide))
  have a12 : W2 m ρ c (Proc.devRef .tc main_arg12) = (m ((c : Thread nD τ).loc main_arg12)) := (at2 m ρ c stable_arg12).trans (w1_arg m ρ c main_arg12 (by decide))
  have a13 : W2 m ρ c (Proc.devRef .tc main_arg13) = (m ((c : Thread nD τ).loc main_arg13)) := (at2 m ρ c stable_arg13).trans (w1_arg m ρ c main_arg13 (by decide))
  rw [eh, em,
    show V3 m ρ c main_v32 = val_main_v23 (F := Ideal) (m ((c : Thread nD τ).loc main_arg7)) from (wl1 (W2 m ρ c)).trans (congrArg _ a7),
    show V3 m ρ c main_v45 = shapeCast S1x128 (val_main_v25 (F := Ideal) (m ((c : Thread nD τ).loc main_arg8))) shapeCasts_S128_S1x128 from (bl1 (W2 m ρ c)).trans (by rw [a8]),
    show V3 m ρ c main_v36 = val_main_v27 (F := Ideal) (m ((c : Thread nD τ).loc main_arg9)) from (wr1 (W2 m ρ c)).trans (congrArg _ a9),
    show V3 m ρ c main_v46 = shapeCast S1x128 (val_main_v54 (F := Ideal) (m ((c : Thread nD τ).loc main_arg10))) shapeCasts_S128_S1x128 from (g1 (W2 m ρ c)).trans (by rw [a10]),
    show V3 m ρ c main_v47 = shapeCast S1x128 (val_main_v56 (F := Ideal) (m ((c : Thread nD τ).loc main_arg11))) shapeCasts_S128_S1x128 from (beta1 (W2 m ρ c)).trans (by rw [a11]),
    show V3 m ρ c main_v48 = shapeCast S1x128 (val_main_v58 (F := Ideal) (m ((c : Thread nD τ).loc main_arg12))) shapeCasts_S128_S1x128 from (mu1 (W2 m ρ c)).trans (by rw [a12]),
    show V3 m ρ c main_v49 = shapeCast S1x128 (val_main_v60 (F := Ideal) (m ((c : Thread nD τ).loc main_arg13))) shapeCasts_S128_S1x128 from (var1 (W2 m ρ c)).trans (by rw [a13])]
  exact layer1_rows _ _ _ _ _ _ _ _ _

/-- After residual layer 2's launch: the features after 2 residual layers. -/
theorem feat2 : W6 m ρ c (Proc.devRef .tc main_v82) = Cert.ReferenceIdeal.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  refine (W6_arr m ρ c 9).trans ((Layer2Value.final (V5 m ρ) c).trans ?_)
  have eh : V5 m ρ c main_v50 = Cert.ReferenceIdeal.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) :=
    (keep2 (W4 m ρ c) main_v50 (by decide)).trans (feat1 m ρ c)
  have em : V5 m ρ c main_v62 = Cert.ReferenceIdeal.Net.mean (Cert.ReferenceIdeal.Net.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16))) (m ((c : Thread nD τ).loc main_arg16)) :=
    (mean2 (W4 m ρ c) _ (m ((c : Thread nD τ).loc main_arg16)) (Cert.ReferenceIdeal.Net.recip (m ((c : Thread nD τ).loc main_arg16))) (feat1 m ρ c)
      ((at4 m ρ c stable_v1).trans (w1_src m ρ c)) ((at4 m ρ c stable_v3).trans (w1_dst m ρ c))
      ((at4 m ρ c stable_v12).trans (w1_inv m ρ c))).trans (Cert.ReferenceIdeal.Net.mul_recip_eq_mean _ _)
  have a7 : W4 m ρ c (Proc.devRef .tc main_arg7) = (m ((c : Thread nD τ).loc main_arg7)) := (at4 m ρ c stable_arg7).trans (w1_arg m ρ c main_arg7 (by decide))
  have a8 : W4 m ρ c (Proc.devRef .tc main_arg8) = (m ((c : Thread nD τ).loc main_arg8)) := (at4 m ρ c stable_arg8).trans (w1_arg m ρ c main_arg8 (by decide))
  have a9 : W4 m ρ c (Proc.devRef .tc main_arg9) = (m ((c : Thread nD τ).loc main_arg9)) := (at4 m ρ c stable_arg9).trans (w1_arg m ρ c main_arg9 (by decide))
  have a10 : W4 m ρ c (Proc.devRef .tc main_arg10) = (m ((c : Thread nD τ).loc main_arg10)) := (at4 m ρ c stable_arg10).trans (w1_arg m ρ c main_arg10 (by decide))
  have a11 : W4 m ρ c (Proc.devRef .tc main_arg11) = (m ((c : Thread nD τ).loc main_arg11)) := (at4 m ρ c stable_arg11).trans (w1_arg m ρ c main_arg11 (by decide))
  have a12 : W4 m ρ c (Proc.devRef .tc main_arg12) = (m ((c : Thread nD τ).loc main_arg12)) := (at4 m ρ c stable_arg12).trans (w1_arg m ρ c main_arg12 (by decide))
  have a13 : W4 m ρ c (Proc.devRef .tc main_arg13) = (m ((c : Thread nD τ).loc main_arg13)) := (at4 m ρ c stable_arg13).trans (w1_arg m ρ c main_arg13 (by decide))
  rw [eh, em,
    show V5 m ρ c main_v64 = val_main_v77 (F := Ideal) (m ((c : Thread nD τ).loc main_arg7)) from (wl2 (W4 m ρ c)).trans (congrArg _ a7),
    show V5 m ρ c main_v77 = shapeCast S1x128 (val_main_v79 (F := Ideal) (m ((c : Thread nD τ).loc main_arg8))) shapeCasts_S128_S1x128 from (bl2 (W4 m ρ c)).trans (by rw [a8]),
    show V5 m ρ c main_v68 = val_main_v81 (F := Ideal) (m ((c : Thread nD τ).loc main_arg9)) from (wr2 (W4 m ρ c)).trans (congrArg _ a9),
    show V5 m ρ c main_v78 = shapeCast S1x128 (val_main_v108 (F := Ideal) (m ((c : Thread nD τ).loc main_arg10))) shapeCasts_S128_S1x128 from (g2 (W4 m ρ c)).trans (by rw [a10]),
    show V5 m ρ c main_v79 = shapeCast S1x128 (val_main_v110 (F := Ideal) (m ((c : Thread nD τ).loc main_arg11))) shapeCasts_S128_S1x128 from (beta2 (W4 m ρ c)).trans (by rw [a11]),
    show V5 m ρ c main_v80 = shapeCast S1x128 (val_main_v112 (F := Ideal) (m ((c : Thread nD τ).loc main_arg12))) shapeCasts_S128_S1x128 from (mu2 (W4 m ρ c)).trans (by rw [a12]),
    show V5 m ρ c main_v81 = shapeCast S1x128 (val_main_v114 (F := Ideal) (m ((c : Thread nD τ).loc main_arg13))) shapeCasts_S128_S1x128 from (var2 (W4 m ρ c)).trans (by rw [a13])]
  exact layer2_rows _ _ _ _ _ _ _ _ _

/-- After residual layer 3's launch: the features after 3 residual layers. -/
theorem feat3 : W8 m ρ c (Proc.devRef .tc main_v114) = Cert.ReferenceIdeal.Net.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  refine (W8_arr m ρ c 9).trans ((Layer3Value.final (V7 m ρ) c).trans ?_)
  have eh : V7 m ρ c main_v82 = Cert.ReferenceIdeal.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) :=
    (keep3 (W6 m ρ c) main_v82 (by decide)).trans (feat2 m ρ c)
  have em : V7 m ρ c main_v94 = Cert.ReferenceIdeal.Net.mean (Cert.ReferenceIdeal.Net.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16))) (m ((c : Thread nD τ).loc main_arg16)) :=
    (mean3 (W6 m ρ c) _ (m ((c : Thread nD τ).loc main_arg16)) (Cert.ReferenceIdeal.Net.recip (m ((c : Thread nD τ).loc main_arg16))) (feat2 m ρ c)
      ((at6 m ρ c stable_v1).trans (w1_src m ρ c)) ((at6 m ρ c stable_v3).trans (w1_dst m ρ c))
      ((at6 m ρ c stable_v12).trans (w1_inv m ρ c))).trans (Cert.ReferenceIdeal.Net.mul_recip_eq_mean _ _)
  have a7 : W6 m ρ c (Proc.devRef .tc main_arg7) = (m ((c : Thread nD τ).loc main_arg7)) := (at6 m ρ c stable_arg7).trans (w1_arg m ρ c main_arg7 (by decide))
  have a8 : W6 m ρ c (Proc.devRef .tc main_arg8) = (m ((c : Thread nD τ).loc main_arg8)) := (at6 m ρ c stable_arg8).trans (w1_arg m ρ c main_arg8 (by decide))
  have a9 : W6 m ρ c (Proc.devRef .tc main_arg9) = (m ((c : Thread nD τ).loc main_arg9)) := (at6 m ρ c stable_arg9).trans (w1_arg m ρ c main_arg9 (by decide))
  have a10 : W6 m ρ c (Proc.devRef .tc main_arg10) = (m ((c : Thread nD τ).loc main_arg10)) := (at6 m ρ c stable_arg10).trans (w1_arg m ρ c main_arg10 (by decide))
  have a11 : W6 m ρ c (Proc.devRef .tc main_arg11) = (m ((c : Thread nD τ).loc main_arg11)) := (at6 m ρ c stable_arg11).trans (w1_arg m ρ c main_arg11 (by decide))
  have a12 : W6 m ρ c (Proc.devRef .tc main_arg12) = (m ((c : Thread nD τ).loc main_arg12)) := (at6 m ρ c stable_arg12).trans (w1_arg m ρ c main_arg12 (by decide))
  have a13 : W6 m ρ c (Proc.devRef .tc main_arg13) = (m ((c : Thread nD τ).loc main_arg13)) := (at6 m ρ c stable_arg13).trans (w1_arg m ρ c main_arg13 (by decide))
  rw [eh, em,
    show V7 m ρ c main_v96 = val_main_v131 (F := Ideal) (m ((c : Thread nD τ).loc main_arg7)) from (wl3 (W6 m ρ c)).trans (congrArg _ a7),
    show V7 m ρ c main_v109 = shapeCast S1x128 (val_main_v133 (F := Ideal) (m ((c : Thread nD τ).loc main_arg8))) shapeCasts_S128_S1x128 from (bl3 (W6 m ρ c)).trans (by rw [a8]),
    show V7 m ρ c main_v100 = val_main_v135 (F := Ideal) (m ((c : Thread nD τ).loc main_arg9)) from (wr3 (W6 m ρ c)).trans (congrArg _ a9),
    show V7 m ρ c main_v110 = shapeCast S1x128 (val_main_v162 (F := Ideal) (m ((c : Thread nD τ).loc main_arg10))) shapeCasts_S128_S1x128 from (g3 (W6 m ρ c)).trans (by rw [a10]),
    show V7 m ρ c main_v111 = shapeCast S1x128 (val_main_v164 (F := Ideal) (m ((c : Thread nD τ).loc main_arg11))) shapeCasts_S128_S1x128 from (beta3 (W6 m ρ c)).trans (by rw [a11]),
    show V7 m ρ c main_v112 = shapeCast S1x128 (val_main_v166 (F := Ideal) (m ((c : Thread nD τ).loc main_arg12))) shapeCasts_S128_S1x128 from (mu3 (W6 m ρ c)).trans (by rw [a12]),
    show V7 m ρ c main_v113 = shapeCast S1x128 (val_main_v168 (F := Ideal) (m ((c : Thread nD τ).loc main_arg13))) shapeCasts_S128_S1x128 from (var3 (W6 m ρ c)).trans (by rw [a13])]
  exact layer3_rows _ _ _ _ _ _ _ _ _

/-! ## The result -/

/-- THE RESULT: the network's read-out of the features after three residual layers. -/
theorem result : W11 m ρ c (Proc.devRef .tc main_v123) = Cert.ReferenceIdeal.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (slice5 (W10 m ρ c)).trans ?_
  rw [show W10 m ρ c (Proc.devRef .tc main_v122) = (dat4 (V9 m ρ) c).arrAt 3 cfg4.N from W10_arr m ρ c 3,
    ReadoutValue.final (V9 m ρ) c,
    show V9 m ρ c main_v114 = Cert.ReferenceIdeal.Net.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) from
      (keep4 (W8 m ρ c) main_v114 (by decide)).trans (feat3 m ρ c),
    show V9 m ρ c main_v117 = _ from padW (W8 m ρ c),
    show V9 m ρ c main_v121 = _ from padB (W8 m ρ c),
    show W8 m ρ c (Proc.devRef .tc main_arg14) = (m ((c : Thread nD τ).loc main_arg14)) from (at8 m ρ c stable_arg14).trans (w1_arg m ρ c main_arg14 (by decide)),
    show W8 m ρ c (Proc.devRef .tc main_arg15) = (m ((c : Thread nD τ).loc main_arg15)) from (at8 m ρ c stable_arg15).trans (w1_arg m ρ c main_arg15 (by decide))]
  exact readout_cols _ _ _ _ _

end Cert.KernelIdeal.NetValue

end
-- ==== Proof.RefLayers.lean ====
/-
  The reference program, stage by stage, is the network of the specification.

  Each stage of the host program is read at an index: a contraction is the sum over the shared axis of the
  operands' products, a broadcast reads its operand at the index with the new axes dropped, and the pointwise
  operations act on the elements. Composing these readings over the input layer, over each residual layer and
  over the read-out gives, index by index, the formulas of the specification. The gathering of source rows, the
  summing at destination nodes and the counting of edges stay the host's own functions on both sides, so the
  neighbourhood means agree by unfolding.
-/
import proofs.«102266_j41506563948594_2_alg».proof.Proof.RefNet

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The neighbourhood means

The mean stage divides the sum, over the edges ending at a node, of the gathered source rows by the node's degree
raised to at least one. Every layer builds the edge endpoints and the degree from the edge list by the same host
operations, so the stage is the specification's mean of the layer's input features by unfolding. -/

theorem mean1_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal)) (x16 : (⟨S2x600000, .i32⟩ : BufTy).Contents (Elt Ideal)) :
    val_main_v46 (F := Ideal) x0 x1 x2 x3 x4 x5 x6 x16 = Net.mean (val_main_v21 (F := Ideal) x0 x1 x2 x3 x4 x5 x6) x16 := rfl

theorem mean2_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal)) (x16 : (⟨S2x600000, .i32⟩ : BufTy).Contents (Elt Ideal)) :
    val_main_v100 (F := Ideal) x0 x1 x2 x3 x4 x5 x6 x7 x8 x9 x10 x11 x12 x13 x16
      = Net.mean (val_main_v75 (F := Ideal) x0 x1 x2 x3 x4 x5 x6 x7 x8 x9 x10 x11 x12 x13 x16) x16 := rfl

theorem mean3_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal)) (x16 : (⟨S2x600000, .i32⟩ : BufTy).Contents (Elt Ideal)) :
    val_main_v154 (F := Ideal) x0 x1 x2 x3 x4 x5 x6 x7 x8 x9 x10 x11 x12 x13 x16
      = Net.mean (val_main_v129 (F := Ideal) x0 x1 x2 x3 x4 x5 x6 x7 x8 x9 x10 x11 x12 x13 x16) x16 := rfl

/-! ## The input layer

`relu ((x · W + b - μ) · (γ · rsqrt (σ² + ε)) + β)`, read at an index `i`: the contraction runs over the second
coordinate of `x` and the first of `W`, and every per-feature vector is read at the feature coordinate `i 1`. -/

theorem init_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal)) :
    val_main_v21 (F := Ideal) x0 x1 x2 x3 x4 x5 x6 = Net.h0 x0 x1 x2 x3 x4 x5 x6 := by
  funext i
  have hl : ∀ k : Fin 128, lidx_main_v4 i k = (ix2 (i 0) k : S100000x128.Idx) := fun k => funext fun a => Fin.ext (by match a with | ⟨0, _⟩ => rfl | ⟨1, _⟩ => rfl)
  have hr : ∀ k : Fin 128, ridx_main_v4 i k = (ix2 k (i 1) : S128x128.Idx) := fun k => funext fun a => Fin.ext (by match a with | ⟨0, _⟩ => rfl | ⟨1, _⟩ => rfl)
  have hb : idx_main_v5 (idx_main_v6 i) = (ix1 (i 1) : S128.Idx) := funext fun a => Fin.ext (by match a with | ⟨0, _⟩ => rfl)
  have hm : idx_main_v8 (idx_main_v9 i) = (ix1 (i 1) : S128.Idx) := funext fun a => Fin.ext (by match a with | ⟨0, _⟩ => rfl)
  have hg : idx_main_v15 (idx_main_v16 i) = (ix1 (i 1) : S128.Idx) := funext fun a => Fin.ext (by match a with | ⟨0, _⟩ => rfl)
  have hβ : idx_main_v18 (idx_main_v19 i) = (ix1 (i 1) : S128.Idx) := funext fun a => Fin.ext (by match a with | ⟨0, _⟩ => rfl)
  simp -implicitDefEqProofs only [val_main_v21_apply, val_main_v20_apply, val_main_v17_apply, val_main_v10_apply, val_main_v7_apply,
    val_main_v4_apply, val_main_v6_apply, val_main_v5_apply, val_main_v9_apply, val_main_v8_apply,
    val_main_v16_apply, val_main_v15_apply, val_main_v14_apply, val_main_v13_apply, val_main_v12_apply,
    val_main_v11_apply, val_main_cst_apply, val_main_v19_apply, val_main_v18_apply,
    val_main_call0_v0_apply, val_main_call0_cst_apply,
    hl, hr, hb, hm, hg, hβ,
    Ideal.addf_def, Ideal.subf_def, Ideal.mulf_def, Ideal.maximumf_def, Ideal.hostUnary_rsqrt_def, Ideal.ofBits_def,
    Ideal.ofBits_zero_f32, Net.h0, Resid.init, Resid.bn, Resid.eps]

/-! ## The residual layers

`h + relu ((a · Wl + bl + h · Wr - μ) · (γ · rsqrt (σ² + ε)) + β)` with `a` the neighbourhood means of `h`, read
at an index `i` as the input layer is. The layer's input features and their means stay folded while the stages
are read, and are then identified by the previous layer's theorem and by the mean's. The three layers differ in
the slice of the stacked parameters they read and in nothing else. -/

theorem layer1_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal)) (x16 : (⟨S2x600000, .i32⟩ : BufTy).Contents (Elt Ideal)) :
    val_main_v75 (F := Ideal) x0 x1 x2 x3 x4 x5 x6 x7 x8 x9 x10 x11 x12 x13 x16 = Net.h1 x0 x1 x2 x3 x4 x5 x6 x7 x8 x9 x10 x11 x12 x13 x16 := by
  funext i
  have hl : ∀ k : Fin 128, lidx_main_v47 i k = (ix2 (i 0) k : S100000x128.Idx) := fun k => funext fun a => Fin.ext (by match a with | ⟨0, _⟩ => rfl | ⟨1, _⟩ => rfl)
  have hr : ∀ k : Fin 128, ridx_main_v47 i k = (ix2 k (i 1) : S128x128.Idx) := fun k => funext fun a => Fin.ext (by match a with | ⟨0, _⟩ => rfl | ⟨1, _⟩ => rfl)
  have hl' : ∀ k : Fin 128, lidx_main_v51 i k = (ix2 (i 0) k : S100000x128.Idx) := fun k => funext fun a => Fin.ext (by match a with | ⟨0, _⟩ => rfl | ⟨1, _⟩ => rfl)
  have hr' : ∀ k : Fin 128, ridx_main_v51 i k = (ix2 k (i 1) : S128x128.Idx) := fun k => funext fun a => Fin.ext (by match a with | ⟨0, _⟩ => rfl | ⟨1, _⟩ => rfl)
  have hb : idx_main_v48 (idx_main_v49 i) = (ix1 (i 1) : S128.Idx) := funext fun a => Fin.ext (by match a with | ⟨0, _⟩ => rfl)
  have hm : idx_main_v61 (idx_main_v62 i) = (ix1 (i 1) : S128.Idx) := funext fun a => Fin.ext (by match a with | ⟨0, _⟩ => rfl)
  have hg : idx_main_v68 (idx_main_v69 i) = (ix1 (i 1) : S128.Idx) := funext fun a => Fin.ext (by match a with | ⟨0, _⟩ => rfl)
  have hβ : idx_main_v71 (idx_main_v72 i) = (ix1 (i 1) : S128.Idx) := funext fun a => Fin.ext (by match a with | ⟨0, _⟩ => rfl)
  simp -implicitDefEqProofs only [val_main_v75_apply, val_main_v74_apply, val_main_v73_apply, val_main_v70_apply, val_main_v63_apply, val_main_v52_apply,
    val_main_v50_apply, val_main_v47_apply, val_main_v49_apply, val_main_v48_apply, val_main_v51_apply,
    val_main_v62_apply, val_main_v61_apply, val_main_v69_apply, val_main_v68_apply, val_main_v67_apply, val_main_v66_apply,
    val_main_v65_apply, val_main_v64_apply, val_main_cst_5_apply, val_main_v72_apply, val_main_v71_apply,
    val_main_call1_v0_apply, val_main_call1_cst_apply,
    hl, hr, hl', hr', hb, hm, hg, hβ,
    Ideal.addf_def, Ideal.subf_def, Ideal.mulf_def, Ideal.maximumf_def, Ideal.hostUnary_rsqrt_def, Ideal.ofBits_def,
    Ideal.ofBits_zero_f32]
  rw [mean1_eq, init_eq]
  simp -implicitDefEqProofs only [Net.h1, Net.layer, Resid.sage, Resid.bn, Resid.eps]

theorem layer2_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal)) (x16 : (⟨S2x600000, .i32⟩ : BufTy).Contents (Elt Ideal)) :
    val_main_v129 (F := Ideal) x0 x1 x2 x3 x4 x5 x6 x7 x8 x9 x10 x11 x12 x13 x16 = Net.h2 x0 x1 x2 x3 x4 x5 x6 x7 x8 x9 x10 x11 x12 x13 x16 := by
  funext i
  have hl : ∀ k : Fin 128, lidx_main_v101 i k = (ix2 (i 0) k : S100000x128.Idx) := fun k => funext fun a => Fin.ext (by match a with | ⟨0, _⟩ => rfl | ⟨1, _⟩ => rfl)
  have hr : ∀ k : Fin 128, ridx_main_v101 i k = (ix2 k (i 1) : S128x128.Idx) := fun k => funext fun a => Fin.ext (by match a with | ⟨0, _⟩ => rfl | ⟨1, _⟩ => rfl)
  have hl' : ∀ k : Fin 128, lidx_main_v105 i k = (ix2 (i 0) k : S100000x128.Idx) := fun k => funext fun a => Fin.ext (by match a with | ⟨0, _⟩ => rfl | ⟨1, _⟩ => rfl)
  have hr' : ∀ k : Fin 128, ridx_main_v105 i k = (ix2 k (i 1) : S128x128.Idx) := fun k => funext fun a => Fin.ext (by match a with | ⟨0, _⟩ => rfl | ⟨1, _⟩ => rfl)
  have hb : idx_main_v102 (idx_main_v103 i) = (ix1 (i 1) : S128.Idx) := funext fun a => Fin.ext (by match a with | ⟨0, _⟩ => rfl)
  have hm : idx_main_v115 (idx_main_v116 i) = (ix1 (i 1) : S128.Idx) := funext fun a => Fin.ext (by match a with | ⟨0, _⟩ => rfl)
  have hg : idx_main_v122 (idx_main_v123 i) = (ix1 (i 1) : S128.Idx) := funext fun a => Fin.ext (by match a with | ⟨0, _⟩ => rfl)
  have hβ : idx_main_v125 (idx_main_v126 i) = (ix1 (i 1) : S128.Idx) := funext fun a => Fin.ext (by match a with | ⟨0, _⟩ => rfl)
  simp -implicitDefEqProofs only [val_main_v129_apply, val_main_v128_apply, val_main_v127_apply, val_main_v124_apply, val_main_v117_apply, val_main_v106_apply,
    val_main_v104_apply, val_main_v101_apply, val_main_v103_apply, val_main_v102_apply, val_main_v105_apply,
    val_main_v116_apply, val_main_v115_apply, val_main_v123_apply, val_main_v122_apply, val_main_v121_apply, val_main_v120_apply,
    val_main_v119_apply, val_main_v118_apply, val_main_cst_12_apply, val_main_v126_apply, val_main_v125_apply,
    val_main_call2_v0_apply, val_main_call2_cst_apply,
    hl, hr, hl', hr', hb, hm, hg, hβ,
    Ideal.addf_def, Ideal.subf_def, Ideal.mulf_def, Ideal.maximumf_def, Ideal.hostUnary_rsqrt_def, Ideal.ofBits_def,
    Ideal.ofBits_zero_f32]
  rw [mean2_eq, layer1_eq]
  simp -implicitDefEqProofs only [Net.h2, Net.layer, Resid.sage, Resid.bn, Resid.eps]

theorem layer3_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal)) (x16 : (⟨S2x600000, .i32⟩ : BufTy).Contents (Elt Ideal)) :
    val_main_v183 (F := Ideal) x0 x1 x2 x3 x4 x5 x6 x7 x8 x9 x10 x11 x12 x13 x16 = Net.h3 x0 x1 x2 x3 x4 x5 x6 x7 x8 x9 x10 x11 x12 x13 x16 := by
  funext i
  have hl : ∀ k : Fin 128, lidx_main_v155 i k = (ix2 (i 0) k : S100000x128.Idx) := fun k => funext fun a => Fin.ext (by match a with | ⟨0, _⟩ => rfl | ⟨1, _⟩ => rfl)
  have hr : ∀ k : Fin 128, ridx_main_v155 i k = (ix2 k (i 1) : S128x128.Idx) := fun k => funext fun a => Fin.ext (by match a with | ⟨0, _⟩ => rfl | ⟨1, _⟩ => rfl)
  have hl' : ∀ k : Fin 128, lidx_main_v159 i k = (ix2 (i 0) k : S100000x128.Idx) := fun k => funext fun a => Fin.ext (by match a with | ⟨0, _⟩ => rfl | ⟨1, _⟩ => rfl)
  have hr' : ∀ k : Fin 128, ridx_main_v159 i k = (ix2 k (i 1) : S128x128.Idx) := fun k => funext fun a => Fin.ext (by match a with | ⟨0, _⟩ => rfl | ⟨1, _⟩ => rfl)
  have hb : idx_main_v156 (idx_main_v157 i) = (ix1 (i 1) : S128.Idx) := funext fun a => Fin.ext (by match a with | ⟨0, _⟩ => rfl)
  have hm : idx_main_v169 (idx_main_v170 i) = (ix1 (i 1) : S128.Idx) := funext fun a => Fin.ext (by match a with | ⟨0, _⟩ => rfl)
  have hg : idx_main_v176 (idx_main_v177 i) = (ix1 (i 1) : S128.Idx) := funext fun a => Fin.ext (by match a with | ⟨0, _⟩ => rfl)
  have hβ : idx_main_v179 (idx_main_v180 i) = (ix1 (i 1) : S128.Idx) := funext fun a => Fin.ext (by match a with | ⟨0, _⟩ => rfl)
  simp -implicitDefEqProofs only [val_main_v183_apply, val_main_v182_apply, val_main_v181_apply, val_main_v178_apply, val_main_v171_apply, val_main_v160_apply,
    val_main_v158_apply, val_main_v155_apply, val_main_v157_apply, val_main_v156_apply, val_main_v159_apply,
    val_main_v170_apply, val_main_v169_apply, val_main_v177_apply, val_main_v176_apply, val_main_v175_apply, val_main_v174_apply,
    val_main_v173_apply, val_main_v172_apply, val_main_cst_19_apply, val_main_v180_apply, val_main_v179_apply,
    val_main_call3_v0_apply, val_main_call3_cst_apply,
    hl, hr, hl', hr', hb, hm, hg, hβ,
    Ideal.addf_def, Ideal.subf_def, Ideal.mulf_def, Ideal.maximumf_def, Ideal.hostUnary_rsqrt_def, Ideal.ofBits_def,
    Ideal.ofBits_zero_f32]
  rw [mean3_eq, layer2_eq]
  simp -implicitDefEqProofs only [Net.h3, Net.layer, Resid.sage, Resid.bn, Resid.eps]

/-! ## The read-out

`h · Wo + bo` at an index `i`, over the features of the third layer. -/

theorem out_val_eq (x0 : (⟨S100000x128, .f32⟩ : BufTy).Contents (Elt Ideal)) (x1 : (⟨S128x128, .f32⟩ : BufTy).Contents (Elt Ideal)) (x2 x3 x4 x5 x6 : (⟨S128, .f32⟩ : BufTy).Contents (Elt Ideal))
    (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 x11 x12 x13 : (⟨S3x128, .f32⟩ : BufTy).Contents (Elt Ideal))
    (x14 : (⟨S128x47, .f32⟩ : BufTy).Contents (Elt Ideal)) (x15 : (⟨S47, .f32⟩ : BufTy).Contents (Elt Ideal)) (x16 : (⟨S2x600000, .i32⟩ : BufTy).Contents (Elt Ideal)) :
    val_main_v187 (F := Ideal) x0 x1 x2 x3 x4 x5 x6 x7 x8 x9 x10 x11 x12 x13 x14 x15 x16 = Net.out x0 x1 x2 x3 x4 x5 x6 x7 x8 x9 x10 x11 x12 x13 x14 x15 x16 := by
  funext i
  have hl : ∀ k : Fin 128, lidx_main_v184 i k = (ix2 (i 0) k : S100000x128.Idx) := fun k => funext fun a => Fin.ext (by match a with | ⟨0, _⟩ => rfl | ⟨1, _⟩ => rfl)
  have hr : ∀ k : Fin 128, ridx_main_v184 i k = (ix2 k (i 1) : S128x47.Idx) := fun k => funext fun a => Fin.ext (by match a with | ⟨0, _⟩ => rfl | ⟨1, _⟩ => rfl)
  have hb : idx_main_v185 (idx_main_v186 i) = (ix1 (i 1) : S47.Idx) := funext fun a => Fin.ext (by match a with | ⟨0, _⟩ => rfl)
  simp -implicitDefEqProofs only [val_main_v187_apply, val_main_v184_apply, val_main_v186_apply, val_main_v185_apply, hl, hr, hb,
    Ideal.addf_def]
  rw [layer3_eq]
  simp -implicitDefEqProofs only [Net.out, Resid.final]

/-- The value the reference run leaves in its result buffer is the network of the argument arrays. -/
theorem out_eq (m : (ℓ : Loc nD τ sig) → Buf (Elt Ideal) ℓ) (c : Dev nD) :
    Cert.ReferenceIdeal.Value.res_out0 (F := Ideal) m c
      = Net.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16)) :=
  (val_main_v187_eq (F := Ideal) m c).trans (out_val_eq _ _ _ _ _ _ _ _ _ _ _ _ _ _ _ _ _)

end Cert.ReferenceIdeal.RefValue

end
-- ==== Proof.lean ====
/-
  A three-layer residual mean-aggregation network on a graph of 100000 nodes and 600000 edges: the kernel program
  against its reference, at the exact (extended-real) reading of both.

  The kernel program runs the input layer, the three residual layers and the read-out as five grid launches over
  blocks of 4000 nodes, with the gather of source rows, the sums at destination nodes and the degree count done by
  host operations between the launches; the reference does everything with host operations. Index by index both
  compute

      h₀ = relu (bn (x · W + b)),   hₗ₊₁ = hₗ + relu (bn (mean(hₗ) · Wlₗ + blₗ + hₗ · Wrₗ)),   out = h₃ · Wo + bo,

  where `bn t = (t - μ) · (γ · rsqrt (σ² + ε)) + β` and `mean(h)` is, per node, the sum of the source rows of `h`
  over the edges ending at the node, over the number of such edges raised to at least one. The two programs differ
  in three ways, none of which matters on the extended reals: the kernel multiplies blocks on the matrix unit after
  a change of float format (the identity) and into a zero accumulator (a plain sum over the contracted axis, as the
  host's product is); it multiplies the edge sums by a reciprocal computed once where the reference divides (the
  raised degree is at least one, so not zero, and then both are the edge sum times its inverse, at the infinities
  too: no finiteness is used); and it pads the read-out's weight and bias to 128 columns with zeros and keeps the
  first 47 columns of the result (a column below 47 of the padded weight is the weight's).

  The modules: `ResidSpec` (the layers index by index), `RefNet` (the network as one term of the arguments, in
  the host operations both programs share), `RefLayers` (the reference is that term), `KernelRun` (the kernel's run
  with its result named), `BlockPayload` / `…Region` / `RegionLayers` (each launch's result array as the layer's
  function of the arrays it is launched on), `HostStretches` and `MeanLaw` (what the host operations between the
  launches compute), `KernelNet` (the kernel's result is that term).
-/
import proofs.«102266_j41506563948594_2_alg».proof.Defs
import proofs.«102266_j41506563948594_2_alg».proof.Proof.Gen.Kernel
import proofs.«102266_j41506563948594_2_alg».proof.Proof.Gen.Kernel.Skeleton
import proofs.«102266_j41506563948594_2_alg».proof.Proof.Gen.Kernel.Launch
import proofs.«102266_j41506563948594_2_alg».proof.Proof.Gen.Kernel.Points
import proofs.«102266_j41506563948594_2_alg».proof.Proof.Gen.Kernel.Frame
import proofs.«102266_j41506563948594_2_alg».proof.Proof.Gen.KernelIdeal
import proofs.«102266_j41506563948594_2_alg».proof.Proof.Gen.KernelIdeal.Skeleton
import proofs.«102266_j41506563948594_2_alg».proof.Proof.Gen.KernelIdeal.Launch
import proofs.«102266_j41506563948594_2_alg».proof.Proof.Gen.KernelIdeal.Points
import proofs.«102266_j41506563948594_2_alg».proof.Proof.Gen.KernelIdeal.Frame
import proofs.«102266_j41506563948594_2_alg».proof.Proof.Gen.ReferenceIdeal
import proofs.«102266_j41506563948594_2_alg».proof.Proof.Gen.Pre_finite_inputs
import proofs.«102266_j41506563948594_2_alg».proof.Proof.Gen.ReferenceIdeal.Run
import proofs.«102266_j41506563948594_2_alg».proof.Proof.Gen.ReferenceIdeal.Read
import proofs.«102266_j41506563948594_2_alg».proof.Proof.KernelRun
import proofs.«102266_j41506563948594_2_alg».proof.Proof.KernelNet
import proofs.«102266_j41506563948594_2_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel and its idealization run, nothing faulting, the arguments unchanged: the generated frames. -/
theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end at the network of the arguments. -/
theorem algebraic : Cert.algebraic_KernelIdeal_ReferenceIdeal := by
  intro m ρ m' ρ' _ hagree
  refine ⟨fun c => Cert.ReferenceIdeal.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.NetValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    refine (Cert.ReferenceIdeal.RefValue.out_eq m' c).trans ?_
    rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
